-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S1x256 : Shape := ⟨2, ![1, 256]⟩
abbrev S1x128 : Shape := ⟨2, ![1, 128]⟩

abbrev nBuf : Space → Nat
  | .hbm => 77
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .bf16⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .bf16⟩
  | .hbm, ⟨41, _⟩ => ⟨S850000x128, .f32⟩
  | .hbm, ⟨42, _⟩ => ⟨S_, .f32⟩
  | .hbm, ⟨43, _⟩ => ⟨S50000x128, .f32⟩
  | .hbm, ⟨44, _⟩ => ⟨S850000x1, .i32⟩
  | .hbm, ⟨45, _⟩ => ⟨S50000x128, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S50000x1, .f32⟩
  | .hbm, ⟨54, _⟩ => ⟨S50000x128, .bf16⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .bf16⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S256x128, .f32⟩
  | .local _ .vmem, ⟨10, _⟩ => ⟨S5000x1, .f32⟩
  | .local _ .vmem, ⟨11, _⟩ => ⟨S5000x1, .f32⟩
  | .local _ .vmem, ⟨12, _⟩ => ⟨S5000x128, .bf16⟩
  | .local _ .vmem, ⟨13, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_cst : Ref sig .tc := ⟨.hbm, 50, rfl⟩
abbrev main_call1_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call2_cst : Ref sig .tc := ⟨.hbm, 74, rfl⟩
abbrev main_call2_v0 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  packedbf16_S5000x128_S5000x128_0_0 : (Rect.unit (s := S5000x128) ![0, 0] S5000x128.size inb_S5000x128_S5000x128_0_0).PackedRows (EltTy.packing .bf16)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel program's run with its result named.

  The program is two pipelined regions among stretches of host operations.  Its frame certificate walks the
  TensorCore's buffer contents from the launch memory through every stretch and region to the last boundary; the
  contents there are a fold over the program (`Gen.W10`).  Here the same run is stated with one more conjunct: the
  result buffer ends at that fold's value, beside the argument arrays ending as launched.  Everything after this
  module reads that value.
-/
import proofs.«136590_j28252294873752_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v53) = W10 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v53 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Named

end
-- ==== Proof.GcnSpec.lean ====
/-
  A two-layer graph convolution on the extended reals, written two ways.

  Nodes `ι`, edges `ε`; every edge `e` has a source node `s e`; the edges gathered into node `n` form the finite set
  `In n`; every node has a scale `dis n` (the inverse square root of its degree, or zero).  A layer maps node features
  through a weight matrix, sends along every edge the source's row scaled by the two end nodes' scales, sums what
  arrives at each node, adds a bias and clips at zero.

  * The AGGREGATE-FIRST form scales by the source's scale before the edge sum and by the receiving node's scale after
    it, and in the first layer sums the raw features over the edges before the weight matrix is applied.
  * The TRANSFORM-FIRST form applies the weight matrix first and scales each edge's message by the product of the
    two scales, the receiving node's scale read at `dc e`, the edge's destination.

  For finite data, and when `dc e = n` for every edge `e` gathered into `n`, the two forms agree: sums over edges and
  over features commute, and a factor common to every term of a sum moves across it.
-/
import Mathlib.Data.EReal.Basic
import Mathlib.Algebra.BigOperators.Group.Finset.Basic

noncomputable section

open scoped BigOperators

namespace Cert.GcnSpec

variable {ι ε α β γ : Type} [Fintype α] [Fintype β]
variable (s : ε → ι) (dc : ε → ι) (In : ι → Finset ε) (dis : ι → EReal)
variable (x : ι → α → EReal) (W1 : α → β → EReal) (b1 : β → EReal) (W2 : β → γ → EReal) (b2 : γ → EReal)

/-! ## Aggregate first -/

/-- The scaled features summed over the edges into `n`, starting from zero. -/
def aggIn (n : ι) (k : α) : EReal := 0 + ∑ e ∈ In n, x (s e) k * dis (s e)

/-- Layer one: the edge sum scaled by the node's scale, through the weights, plus the bias, clipped at zero. -/
def hidA (n : ι) (j : β) : EReal := max ((∑ k : α, (aggIn s In dis x n k * dis n) * W1 k j) + b1 j) 0

/-- Layer two's per-node row before the edge sum: through the weights, scaled by the node's scale. -/
def preA (n : ι) (f : γ) : EReal := (∑ j : β, hidA s In dis x W1 b1 n j * W2 j f) * dis n

/-- The aggregate-first result. -/
def outA (n : ι) (f : γ) : EReal :=
  max ((0 + ∑ e ∈ In n, preA s In dis x W1 b1 W2 (s e) f) * dis n + b2 f) 0

/-! ## Transform first -/

/-- The features through the first weights. -/
def xw (n : ι) (j : β) : EReal := ∑ k : α, x n k * W1 k j

/-- Layer one: the messages, each scaled by its two end nodes' scales, summed from zero, plus the bias, clipped. -/
def hidT (n : ι) (j : β) : EReal :=
  max ((0 + ∑ e ∈ In n, xw x W1 (s e) j * (dis (s e) * dis (dc e))) + b1 j) 0

/-- Layer one's result through the second weights. -/
def hw (n : ι) (f : γ) : EReal := ∑ j : β, hidT s dc In dis x W1 b1 n j * W2 j f

/-- The transform-first result. -/
def outT (n : ι) (f : γ) : EReal :=
  max ((0 + ∑ e ∈ In n, hw s dc In dis x W1 b1 W2 (s e) f * (dis (s e) * dis (dc e))) + b2 f) 0

end Cert.GcnSpec

end
-- ==== Proof.LibSegmentSum.lean ====
/-
  SEGMENT SUMS AS SCATTERS, READ AT AN ENTRY.

  A segment sum adds every row of an array of updates into the row of the operand that an integer array of segment
  ids names for it. As a scatter with an addition body it comes in two forms:

  * ROWS: operand of shape [N, C], scatter indices [E, 1], updates [E, C]; the updates' axis 1 is the window
    axis, the operand's axis 0 is the inserted window axis and the axis the one index component addresses, and the
    index vector lies along axis 1 of the scatter indices;
  * FLAT: operand [N], scatter indices [E, 1], updates [E]; no window axis, the operand's only axis inserted
    and addressed by the index component.

  At the ideal instance (elements are extended reals) the accumulating scatter is an exact sum: every operand element
  plus the sum of the update elements whose result index is that element. Here the result index of update element
  (e, c) is (idx[e, 0], c) — the start index idx[e, 0] read as a SIGNED integer and NOT clamped, plus the window
  coordinate c on axis 1 — and an update whose result index is outside the operand (a negative id, or an id that is
  N or more) is DROPPED: it contributes nothing. So the scatter read at entry (r, c) is the operand's entry plus the
  sum, over the update rows e whose id idx[e, 0] is r as a signed integer, of the updates' entries (e, c); the flat
  form likewise without the column.
-/
import Idealize.ShloMosaic.PureOps.Ideal
import Idealize.ShloMosaic.Lib.ValueIdx

noncomputable section

open scoped BigOperators

namespace Idealize.ShloMosaic.SegmentSum

open Idealize.ShloMosaic Idealize.ShloMosaic.ValueIdx

/-! ## The result index of an update, for any dimension numbers -/

/-- An update index j lands on operand index i exactly when, on every operand axis, the window's start (signed,
    not clamped) plus the window coordinate is i's coordinate: inside the operand, the result index is that sum; a
    sum outside the operand on some axis gives no result index at all. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro hE a
      have h1 := congrArg Fin.val (congrFun hE a)
      simp only at h1
      have h2 := h a
      omega
    · intro hE
      funext a
      apply Fin.ext
      simp only
      have h2 := hE a
      omega
  · next h =>
    constructor
    · intro hE
      exact absurd hE (by simp)
    · intro hE
      exfalso
      apply h
      intro a
      have h2 := hE a
      have h3 := (i a).isLt
      omega

/-- The operand's kept axes are the ones that are not inserted window axes. -/
theorem mem_sKept {s si u : Shape} (d : ScatterDims s si u) (a : Fin s.rank) :
    a ∈ d.sKept ↔ a ∉ d.insertedWindowDims := by
  simp [ScatterDims.sKept, Shape.kept, List.mem_filter, List.mem_finRange]

/-- Of two axes, the second is not the first. -/
theorem fin2_one_ne_zero : ¬ (1 : Fin 2) = 0 := by decide

/-! ## Rows: operand [N, C], scatter indices [E, 1], updates [E, C] -/

/-- The dimension numbers of the row form: the updates' axis 1 is the window axis, the operand's axis 0 is inserted
    and is the axis the index component addresses, the index vector lies along axis 1 of the scatter indices. Their
    conditions wf are decided on a program's literal shapes. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- On the operand's row axis the window of update (e, c) starts at the id idx[e, 0], read signed. -/
theorem rowDims_start_zero (j : (⟨2, ![E, C]⟩ : Shape).Idx) (idx : IVec ⟨2, ![E, 1]⟩ w) :
    (rowDims N C E wf).start j idx 0 = (idx (ix2 (j 0) (0 : Fin 1))).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the index component does not address, the window starts at 0. -/
theorem rowDims_start_one (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from
    fun h => absurd (List.mem_singleton.mp h) fin2_one_ne_zero)]

/-- The row axis is inserted: the window coordinate on it is 0. -/
theorem rowDims_window_zero (j : (⟨2, ![E, C]⟩ : Shape).Idx) : (rowDims N C E wf).window j 0 = 0 := by
  unfold ScatterDims.window
  rw [dif_neg (show ¬ (0 : Fin 2) ∈ (rowDims N C E wf).sKept from
    fun h => (mem_sKept _ _).mp h (List.mem_singleton.mpr rfl))]

/-- On the column axis the window coordinate of update (e, c) is c. -/
theorem rowDims_window_one (j : (⟨2, ![E, C]⟩ : Shape).Idx) : (rowDims N C E wf).window j 1 = (j 1).val := by
  unfold ScatterDims.window
  rw [dif_pos (show (1 : Fin 2) ∈ (rowDims N C E wf).sKept from
    (mem_sKept _ _).mpr (fun h => absurd (List.mem_singleton.mp h) fin2_one_ne_zero))]
  rfl

end Rows

section RowsApply
variable {N C E w : Nat} (wf : ScatterDims.WF ⟨2, ![N, C]⟩ ⟨2, ![E, 1]⟩ ⟨2, ![E, C]⟩ [1] [0] [0] 1)

/-- Update element (e, c') lands on operand entry (r, c) exactly when the id idx[e, 0], read signed, is r and
    c' = c. An id that is negative, or N or more, is no row's: such an update lands nowhere. -/
theorem rowDims_resultIdx?_eq_some_iff (j : (⟨2, ![E, C]⟩ : Shape).Idx) (idx : IVec ⟨2, ![E, 1]⟩ w)
    (i : (⟨2, ![N, C]⟩ : Shape).Idx) :
    (rowDims N C E wf).resultIdx? j idx = some i ↔
      (idx (ix2 (j 0) (0 : Fin 1))).toInt = ((i 0).val : Int) ∧ (j 1).val = (i 1).val := by
  rw [resultIdx?_eq_some_iff, Fin.forall_fin_two, rowDims_start_zero, rowDims_start_one, rowDims_window_zero,
    rowDims_window_one]
  constructor
  · rintro ⟨h0, h1⟩
    exact ⟨by omega, by omega⟩
  · rintro ⟨h0, h1⟩
    exact ⟨by omega, by omega⟩

/-- THE ROW SCATTER READ AT ENTRY (r, c): the operand's entry plus the sum, over the update rows e whose id
    idx[e, 0] is r as a signed integer, of the updates' entries (e, c). Rows whose id is negative or at least N
    appear in no entry's sum: they are dropped. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    Host.scatterAdd (rowDims N C E wf) x idx upd (ix2 r c) =
      x (ix2 r c) + ∑ e ∈ Finset.univ.filter (fun e : Fin E => (idx (ix2 e (0 : Fin 1))).toInt = (r.val : Int)),
        upd (ix2 e c) := by
  show x (ix2 r c) + ∑ j ∈ Finset.univ.filter
      (fun j => (rowDims N C E wf).resultIdx? j idx = some (ix2 r c)), upd j = _
  congr 1
  refine Finset.sum_nbij' (fun j => j 0) (fun e => ix2 e c) ?_ ?_ ?_ ?_ ?_
  · intro j hj
    rw [Finset.mem_filter, rowDims_resultIdx?_eq_some_iff] at hj
    exact Finset.mem_filter.mpr ⟨Finset.mem_univ _, hj.2.1⟩
  · intro e he
    rw [Finset.mem_filter] at he
    exact Finset.mem_filter.mpr
      ⟨Finset.mem_univ _, (rowDims_resultIdx?_eq_some_iff wf (ix2 e c) idx (ix2 r c)).mpr ⟨he.2, rfl⟩⟩
  · intro j hj
    rw [Finset.mem_filter, rowDims_resultIdx?_eq_some_iff] at hj
    funext a
    match a with
    | ⟨0, _⟩ => rfl
    | ⟨1, _⟩ => exact Fin.ext hj.2.2.symm
  · intro e _
    rfl
  · intro j hj
    rw [Finset.mem_filter, rowDims_resultIdx?_eq_some_iff] at hj
    congr 1
    funext a
    match a with
    | ⟨0, _⟩ => rfl
    | ⟨1, _⟩ => exact Fin.ext hj.2.2

end RowsApply

/-! ## Flat: operand [N], scatter indices [E, 1], updates [E] -/

/-- The dimension numbers of the flat form: the updates have no window axis, the operand's only axis is inserted and
    is the axis the index component addresses, the index vector lies along axis 1 of the scatter indices. Their
    conditions wf are decided on a program's literal shapes. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

/-- On the operand's one axis the window of update e starts at the id idx[e, 0], read signed. -/
theorem flatDims_start_zero (j : (⟨1, ![E]⟩ : Shape).Idx) (idx : IVec ⟨2, ![E, 1]⟩ w) :
    (flatDims N E wf).start j idx 0 = (idx (ix2 (j 0) (0 : Fin 1))).toInt := by
  unfold ScatterDims.start
  rw [dif_pos (show (0 : Fin 1) ∈ (flatDims N E wf).scatterDimsToOperandDims from List.mem_singleton.mpr rfl)]
  have hsi : (flatDims N E wf).siIdx j ⟨List.idxOf (0 : Fin 1) (flatDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's one axis is inserted: the window coordinate on it is 0. -/
theorem flatDims_window_zero (j : (⟨1, ![E]⟩ : Shape).Idx) : (flatDims N E wf).window j 0 = 0 := by
  unfold ScatterDims.window
  rw [dif_neg (show ¬ (0 : Fin 1) ∈ (flatDims N E wf).sKept from
    fun h => (mem_sKept _ _).mp h (List.mem_singleton.mpr rfl))]

/-- Update element e lands on operand entry r exactly when the id idx[e, 0], read signed, is r. An id that is
    negative, or N or more, is no entry's: such an update lands nowhere. -/
theorem flatDims_resultIdx?_eq_some_iff (j : (⟨1, ![E]⟩ : Shape).Idx) (idx : IVec ⟨2, ![E, 1]⟩ w)
    (i : (⟨1, ![N]⟩ : Shape).Idx) :
    (flatDims N E wf).resultIdx? j idx = some i ↔ (idx (ix2 (j 0) (0 : Fin 1))).toInt = ((i 0).val : Int) := by
  rw [resultIdx?_eq_some_iff, Fin.forall_fin_one, flatDims_start_zero, flatDims_window_zero]
  constructor
  · intro h0
    omega
  · intro h0
    omega

/-- THE FLAT SCATTER READ AT ENTRY r: the operand's entry plus the sum, over the update positions e whose id
    idx[e, 0] is r as a signed integer, of the updates' entries e. Positions whose id is negative or at least N
    appear in no entry's sum: they are dropped. -/
theorem scatterAdd_flat_apply {φ : FTy} (x : FVec Ideal ⟨1, ![N]⟩ φ) (idx : IVec ⟨2, ![E, 1]⟩ w)
    (upd : FVec Ideal ⟨1, ![E]⟩ φ) (r : Fin N) :
    Host.scatterAdd (flatDims N E wf) x idx upd (ix1 r) =
      x (ix1 r) + ∑ e ∈ Finset.univ.filter (fun e : Fin E => (idx (ix2 e (0 : Fin 1))).toInt = (r.val : Int)),
        upd (ix1 e) := by
  show x (ix1 r) + ∑ j ∈ Finset.univ.filter
      (fun j => (flatDims N E wf).resultIdx? j idx = some (ix1 r)), upd j = _
  congr 1
  refine Finset.sum_nbij' (fun j => j 0) (fun e => ix1 e) ?_ ?_ ?_ ?_ ?_
  · intro j hj
    rw [Finset.mem_filter, flatDims_resultIdx?_eq_some_iff] at hj
    exact Finset.mem_filter.mpr ⟨Finset.mem_univ _, hj.2⟩
  · intro e he
    rw [Finset.mem_filter] at he
    exact Finset.mem_filter.mpr
      ⟨Finset.mem_univ _, (flatDims_resultIdx?_eq_some_iff wf (ix1 e) idx (ix1 r)).mpr he.2⟩
  · intro j _
    funext a
    match a with
    | ⟨0, _⟩ => rfl
  · intro e _
    rfl
  · intro j _
    congr 1
    funext a
    match a with
    | ⟨0, _⟩ => rfl

end Flat

end Idealize.ShloMosaic.SegmentSum

end
-- ==== Proof.LibGatherRows.lean ====
/-
  GATHERING BY ID, READ AT AN ENTRY.

  Indexing an array by an integer array of ids, x[ids], is a gather whose start index has one component, the id,
  addressing the operand's axis 0, which is collapsed. It comes in two forms:

  * ROWS: operand of shape [N, C], start indices [E, 1], result [E, C]; the result's axis 1 is the offset axis and
    runs over the operand's columns (the slice is one whole row, of sizes [1, C]), the index vector lies along axis 1
    of the start indices;
  * FLAT: operand [N], start indices [E, 1], result [E]; no offset axis, slices of size [1].

  A gather clamps every start index so that the slice fits: the id ids[e, 0] is read as a SIGNED integer, a negative
  one becomes 0, and one above N − 1 becomes N − 1. So the row form read at entry (e, c) is the operand at
  (min (max id 0) (N − 1), c), and the flat form read at e is the operand at min (max id 0) (N − 1). (For a signed
  integer z the natural number z.toNat is max z 0.)
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- Of two axes, the second is not the first. -/
theorem fin2_one_ne_zero : ¬ (1 : Fin 2) = 0 := by decide

/-! ## Rows: operand [N, C], start indices [E, 1], result [E, C] -/

/-- The dimension numbers of the row form. Their conditions wf are decided on a program's literal shapes. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT ENTRY (e, c): the operand's entry (r, c), where r is the id ids[e, 0] read signed and
    clamped into [0, N − 1]. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowDims N C E wf).start (ix2 e c) idx 0 + (rowDims N C E wf).batchCoord (ix2 e c) 0
      + (rowDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1
      + (rowDims N C E wf).offCoord (ix2 e c) 1 = c.val
    rw [GatherDims.batchCoord_eq_zero _ _ _ List.not_mem_nil]
    unfold GatherDims.start
    rw [dif_neg (show ¬ (1 : Fin 2) ∈ (rowDims N C E wf).startIndexMap from
      fun h => absurd (List.mem_singleton.mp h) fin2_one_ne_zero)]
    unfold GatherDims.offCoord
    rw [dif_pos (show (1 : Fin 2) ∈ (rowDims N C E wf).sKept from
      (GatherDims.mem_sKept _ _).mpr ⟨fun h => absurd (List.mem_singleton.mp h) fin2_one_ne_zero, List.not_mem_nil⟩)]
    simp only [Nat.zero_add]
    rfl

/-! ## Flat: operand [N], start indices [E, 1], result [E] -/

/-- The dimension numbers of the flat form. Their conditions wf are decided on a program's literal shapes. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand's entry r, where r is the id ids[e, 0] read signed and clamped into
    [0, N − 1]. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatDims N E wf).start (ix1 e) idx 0 + (flatDims N E wf).batchCoord (ix1 e) 0
    + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.RefValue.lean ====
/-
  The reference program's result, entry by entry, in the transform-first form of the graph convolution.

  The reference computes, from the edge list, the source and destination id of every edge (self-loops appended), the
  degree of every node as a segment sum of ones, the scale of every node (the inverse square root of a positive
  degree, zero otherwise) and, per edge, the product of its two end nodes' scales.  Each layer multiplies the node
  features by a weight matrix, gathers the source's row for every edge, scales it by the edge's product, sums the
  rows that arrive at each node, adds a bias and clips at zero.

  Read at an entry: a gather by ids reads the row whose number is the id, read signed, wrapped once if negative
  and then clamped into the node range; a segment sum reads, at node n, the initial zero plus the sum over the edges
  whose destination id, read signed and NOT clamped, is n; a matrix product reads as the sum over the contracted
  coordinate.  The names below fix, once, the row an edge's source id reads (srcRow), the row its destination id
  reads (dstRow), the edges summed into a node (inEdges) and a node's scale (disAt).
-/
import proofs.«136590_j28252294873752_2_alg».proof.Proof.RefReadP
import proofs.«136590_j28252294873752_2_alg».proof.Proof.GcnSpec
import proofs.«136590_j28252294873752_2_alg».proof.Proof.LibSegmentSum
import proofs.«136590_j28252294873752_2_alg».proof.Proof.LibGatherRows
import Idealize.ShloMosaic.Lib.ValueIdx
import Idealize.ShloMosaic.Lib.Pipeline.Value
import Idealize.ShloMosaic.PureOps.Ideal.Laws

set_option maxRecDepth 16384

noncomputable section

open scoped BigOperators

namespace Cert.RefValue

open Cert.ReferenceIdeal Cert.ReferenceIdeal.Gen Cert.ReferenceIdeal.ReadP
open Idealize.ShloMosaic Idealize.ShloMosaic.ValueIdx

/-- An id word read signed and clamped into the node range. -/
def clampRow (w : BitVec 32) : Fin 50000 := ⟨min w.toInt.toNat (50000 - 1), by omega⟩

section Names
variable (a1 : (⟨S2x800000, .i32⟩ : BufTy).Contents (Elt Ideal))

/-- The row an edge's source id reads. -/
def srcRow (e : Fin 850000) : Fin 50000 := clampRow (val_main_v20 (F := Ideal) a1 (ix2 e (0 : Fin 1)))
/-- The row an edge's destination id reads. -/
def dstRow (e : Fin 850000) : Fin 50000 := clampRow (val_main_v27 (F := Ideal) a1 (ix2 e (0 : Fin 1)))
/-- The edges whose destination id, read signed, is the node. -/
def inEdges (n : Fin 50000) : Finset (Fin 850000) :=
  Finset.univ.filter fun e => (val_main_v9 (F := Ideal) a1 (ix2 e (0 : Fin 1))).toInt = (n.val : Int)
/-- A node's scale. -/
def disAt (n : Fin 50000) : EReal := val_main_v14 (F := Ideal) a1 (ix1 n)
end Names

section Stages
variable (a0 : (⟨S50000x128, .f32⟩ : BufTy).Contents (Elt Ideal)) (a1 : (⟨S2x800000, .i32⟩ : BufTy).Contents (Elt Ideal))
  (a3 : (⟨S128x256, .f32⟩ : BufTy).Contents (Elt Ideal)) (a4 : (⟨S256, .f32⟩ : BufTy).Contents (Elt Ideal))
  (a5 : (⟨S256x128, .f32⟩ : BufTy).Contents (Elt Ideal)) (a6 : (⟨S128, .f32⟩ : BufTy).Contents (Elt Ideal))

/-- The per-edge scale is the product of the two end nodes' scales. -/
theorem norm_apply (e : Fin 850000) :
    val_main_v29 (F := Ideal) a1 (ix1 e) = disAt a1 (srcRow a1 e) * disAt a1 (dstRow a1 e) := by
  rw [val_main_v29_apply]
  show val_main_v21 (F := Ideal) a1 (ix1 e) * val_main_v28 (F := Ideal) a1 (ix1 e) = _
  have h21 : val_main_v21 (F := Ideal) a1 (ix1 e) = disAt a1 (srcRow a1 e) := by
    unfold val_main_v21
    exact GatherRows.gather_flat_apply (by decide) gather_S50000_S850000x1_S850000_n_0_n_n_0_1_1_wf
      (val_main_v14 (F := Ideal) a1) (val_main_v20 (F := Ideal) a1) e
  have h28 : val_main_v28 (F := Ideal) a1 (ix1 e) = disAt a1 (dstRow a1 e) := by
    unfold val_main_v28
    exact GatherRows.gather_flat_apply (by decide) gather_S50000_S850000x1_S850000_n_0_n_n_0_1_1_wf
      (val_main_v14 (F := Ideal) a1) (val_main_v27 (F := Ideal) a1) e
  rw [h21, h28]

/-- The features through the first weights, at an entry. -/
theorem xw_apply (n : Fin 50000) (j : Fin 256) :
    val_main_v30 (F := Ideal) a0 a3 (ix2 n j) = ∑ k : Fin 128, a0 (ix2 n k) * a3 (ix2 k j) := by
  rw [val_main_v30_apply]
  refine Finset.sum_congr rfl fun k _ => ?_
  have e1 : lidx_main_v30 (ix2 n j) k = ix2 n k := funext fun a => Fin.ext (by match a with | ⟨0, _⟩ => rfl | ⟨1, _⟩ => rfl)
  have e2 : ridx_main_v30 (ix2 n j) k = ix2 k j := funext fun a => Fin.ext (by match a with | ⟨0, _⟩ => rfl | ⟨1, _⟩ => rfl)
  rw [e1, e2]

/-- Layer one's gathers read with the same ids as the scale's. -/
theorem v36_eq : val_main_v36 (F := Ideal) a1 = val_main_v20 (F := Ideal) a1 := rfl

/-- Layer one's message of an edge, at a feature. -/
theorem msg1_apply (e : Fin 850000) (j : Fin 256) :
    val_main_v40 (F := Ideal) a0 a1 a3 (ix2 e j)
      = (∑ k : Fin 128, a0 (ix2 (srcRow a1 e) k) * a3 (ix2 k j)) * (disAt a1 (srcRow a1 e) * disAt a1 (dstRow a1 e)) := by
  rw [val_main_v40_apply]
  show val_main_v37 (F := Ideal) a0 a1 a3 (ix2 e j) * val_main_v39 (F := Ideal) a1 (ix2 e j) = _
  have h37 : val_main_v37 (F := Ideal) a0 a1 a3 (ix2 e j) = val_main_v30 (F := Ideal) a0 a3 (ix2 (srcRow a1 e) j) := by
    unfold val_main_v37
    rw [v36_eq]
    exact GatherRows.gather_rows_apply (by decide) gather_S50000x256_S850000x1_S850000x256_1_0_n_n_0_1_1256_wf
      (val_main_v30 (F := Ideal) a0 a3) (val_main_v20 (F := Ideal) a1) e j
  have h39 : val_main_v39 (F := Ideal) a1 (ix2 e j) = val_main_v29 (F := Ideal) a1 (ix1 e) := by
    rw [val_main_v39_apply, val_main_v38_apply]
    exact congrArg _ (funext fun a => Fin.ext (by match a with | ⟨0, _⟩ => rfl))
  rw [h37, h39, xw_apply, norm_apply]

/-! ## Layer one summed, biased and clipped -/

/-- The zero word is the real zero. -/
theorem zero_f32 : (FloatOps.ofBits (F := Ideal) .f32 0x00000000#32 : EReal) = 0 := Ideal.ofBits_zero_f32

/-- Layer one's result at an entry is the transform-first form's. -/
theorem hid_apply (n : Fin 50000) (j : Fin 256) :
    val_main_v47 (F := Ideal) a0 a1 a3 a4 (ix2 n j)
      = GcnSpec.hidT (srcRow a1) (dstRow a1) (inEdges a1) (disAt a1) (fun n k => a0 (ix2 n k)) (fun k j => a3 (ix2 k j))
          (fun j => a4 (ix1 j)) n j := by
  rw [val_main_v47_apply, val_main_v46_apply]
  show max (val_main_v43 (F := Ideal) a0 a1 a3 (ix2 n j) + val_main_v45 (F := Ideal) a4 (ix2 n j))
      (val_main_call1_v0 (F := Ideal) (ix2 n j)) = _
  have h43 : val_main_v43 (F := Ideal) a0 a1 a3 (ix2 n j)
      = 0 + ∑ e ∈ inEdges a1 n, val_main_v40 (F := Ideal) a0 a1 a3 (ix2 e j) := by
    unfold val_main_v43
    refine (SegmentSum.scatterAdd_rows_apply scatter_S50000x256_S850000x1_S850000x256_1_0_0_1_wf
      (val_main_v41 (F := Ideal)) (val_main_v42 (F := Ideal) a1) (val_main_v40 (F := Ideal) a0 a1 a3) n j).trans ?_
    rw [val_main_v41_apply, val_main_cst_8_apply, zero_f32]
    rfl
  have h45 : val_main_v45 (F := Ideal) a4 (ix2 n j) = a4 (ix1 j) := by
    rw [val_main_v45_apply, val_main_v44_apply]
    exact congrArg _ (funext fun a => Fin.ext (by match a with | ⟨0, _⟩ => rfl))
  have h0 : val_main_call1_v0 (F := Ideal) (ix2 n j) = 0 := by
    rw [val_main_call1_v0_apply, val_main_call1_cst_apply, zero_f32]
  rw [h43, h45, h0]
  unfold GcnSpec.hidT GcnSpec.xw
  refine congrArg (fun z => max (0 + z + a4 (ix1 j)) 0) (Finset.sum_congr rfl fun e _ => ?_)
  exact msg1_apply a0 a1 a3 e j

/-- Layer one's result through the second weights, at an entry. -/
theorem hw_apply (n : Fin 50000) (f : Fin 128) :
    val_main_v48 (F := Ideal) a0 a1 a3 a4 a5 (ix2 n f)
      = GcnSpec.hw (srcRow a1) (dstRow a1) (inEdges a1) (disAt a1) (fun n k => a0 (ix2 n k)) (fun k j => a3 (ix2 k j))
          (fun j => a4 (ix1 j)) (fun j f => a5 (ix2 j f)) n f := by
  rw [val_main_v48_apply]
  unfold GcnSpec.hw
  refine Finset.sum_congr rfl fun k _ => ?_
  have e1 : lidx_main_v48 (ix2 n f) k = ix2 n k := funext fun a => Fin.ext (by match a with | ⟨0, _⟩ => rfl | ⟨1, _⟩ => rfl)
  have e2 : ridx_main_v48 (ix2 n f) k = ix2 k f := funext fun a => Fin.ext (by match a with | ⟨0, _⟩ => rfl | ⟨1, _⟩ => rfl)
  rw [e1, e2, hid_apply]

/-- Layer two's gathers read with the same ids as the scale's. -/
theorem v54_eq : val_main_v54 (F := Ideal) a1 = val_main_v20 (F := Ideal) a1 := rfl

/-- Layer two's message of an edge, at a feature. -/
theorem msg2_apply (e : Fin 850000) (f : Fin 128) :
    val_main_v58 (F := Ideal) a0 a1 a3 a4 a5 (ix2 e f)
      = val_main_v48 (F := Ideal) a0 a1 a3 a4 a5 (ix2 (srcRow a1 e) f) * (disAt a1 (srcRow a1 e) * disAt a1 (dstRow a1 e)) := by
  rw [val_main_v58_apply]
  show val_main_v55 (F := Ideal) a0 a1 a3 a4 a5 (ix2 e f) * val_main_v57 (F := Ideal) a1 (ix2 e f) = _
  have h55 : val_main_v55 (F := Ideal) a0 a1 a3 a4 a5 (ix2 e f)
      = val_main_v48 (F := Ideal) a0 a1 a3 a4 a5 (ix2 (srcRow a1 e) f) := by
    unfold val_main_v55
    rw [v54_eq]
    exact GatherRows.gather_rows_apply (by decide) gather_S50000x128_S850000x1_S850000x128_1_0_n_n_0_1_1128_wf
      (val_main_v48 (F := Ideal) a0 a1 a3 a4 a5) (val_main_v20 (F := Ideal) a1) e f
  have h57 : val_main_v57 (F := Ideal) a1 (ix2 e f) = val_main_v29 (F := Ideal) a1 (ix1 e) := by
    rw [val_main_v57_apply, val_main_v56_apply]
    exact congrArg _ (funext fun a => Fin.ext (by match a with | ⟨0, _⟩ => rfl))
  rw [h55, h57, norm_apply]

/-- THE REFERENCE'S RESULT at an entry is the transform-first form. -/
theorem result_apply (n : Fin 50000) (f : Fin 128) :
    val_main_v65 (F := Ideal) a0 a1 a3 a4 a5 a6 (ix2 n f)
      = GcnSpec.outT (srcRow a1) (dstRow a1) (inEdges a1) (disAt a1) (fun n k => a0 (ix2 n k)) (fun k j => a3 (ix2 k j))
          (fun j => a4 (ix1 j)) (fun j f => a5 (ix2 j f)) (fun f => a6 (ix1 f)) n f := by
  rw [val_main_v65_apply, val_main_v64_apply]
  show max (val_main_v61 (F := Ideal) a0 a1 a3 a4 a5 (ix2 n f) + val_main_v63 (F := Ideal) a6 (ix2 n f))
      (val_main_call2_v0 (F := Ideal) (ix2 n f)) = _
  have h61 : val_main_v61 (F := Ideal) a0 a1 a3 a4 a5 (ix2 n f)
      = 0 + ∑ e ∈ inEdges a1 n, val_main_v58 (F := Ideal) a0 a1 a3 a4 a5 (ix2 e f) := by
    unfold val_main_v61
    refine (SegmentSum.scatterAdd_rows_apply scatter_S50000x128_S850000x1_S850000x128_1_0_0_1_wf
      (val_main_v59 (F := Ideal)) (val_main_v60 (F := Ideal) a1) (val_main_v58 (F := Ideal) a0 a1 a3 a4 a5) n f).trans ?_
    rw [val_main_v59_apply, val_main_cst_11_apply, zero_f32]
    rfl
  have h63 : val_main_v63 (F := Ideal) a6 (ix2 n f) = a6 (ix1 f) := by
    rw [val_main_v63_apply, val_main_v62_apply]
    exact congrArg _ (funext fun a => Fin.ext (by match a with | ⟨0, _⟩ => rfl))
  have h0 : val_main_call2_v0 (F := Ideal) (ix2 n f) = 0 := by
    rw [val_main_call2_v0_apply, val_main_call2_cst_apply, zero_f32]
  rw [h61, h63, h0]
  unfold GcnSpec.outT
  refine congrArg (fun z => max (0 + z + a6 (ix1 f)) 0) (Finset.sum_congr rfl fun e _ => ?_)
  rw [msg2_apply, hw_apply]

end Stages

end Cert.RefValue

end
-- ==== Proof.KernelHost.lean ====
/-
  The idealized kernel program's host stretches as terms.

  The program computes the edges' source and destination ids, the nodes' degrees and scales exactly as the reference
  does (the same operations on the same edge list).  Here each stretch of host operations is read as the
  operations' composed term of the buffer contents before it: the ids, the scales and the launched features before
  the first region; the edge sums handed to the first region; bias and clipping between the regions; and the gather,
  the edge sums, the scaling, the bias and the clipping after the second region.  The id and scale arrays are shown equal,
  as terms, to the reference's own stages of the same names.
-/
import proofs.«136590_j28252294873752_2_alg».proof.Proof.Gen.KernelIdeal.Frame
import proofs.«136590_j28252294873752_2_alg».proof.Proof.RefValue
import Idealize.ShloMosaic.Lib.StableHlo.Run

set_option maxRecDepth 16384

noncomputable section

open scoped BigOperators

namespace Cert.KernelValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The edge list as launched. -/
abbrev edges : S2x800000.Idx → BitVec 32 := m ((c : Thread nD τ).loc main_arg1)

/-! ## Before the first region: ids, degrees, scales -/

/-- The source ids are the reference's. -/
theorem src_words : (W2 m ρ c (Proc.devRef .tc main_v3) : S850000.Idx → BitVec 32)
    = Cert.ReferenceIdeal.ReadP.val_main_v3 (F := Ideal) (edges m c) := by
  show StableHlo.after hostOps0_1 (W1 m ρ c) (Proc.devRef .tc main_v3) = _
  after_results
  rfl

/-- The destination ids are the reference's. -/
theorem dst_words : (W2 m ρ c (Proc.devRef .tc main_v6) : S850000.Idx → BitVec 32)
    = Cert.ReferenceIdeal.ReadP.val_main_v6 (F := Ideal) (edges m c) := by
  show StableHlo.after hostOps0_1 (W1 m ρ c) (Proc.devRef .tc main_v6) = _
  after_results
  rfl

/-- The degree comparison is the reference's. -/
theorem deg_pos : (W1 m ρ c (Proc.devRef .tc main_v12) : S50000.Idx → BitVec 1)
    = Cert.ReferenceIdeal.ReadP.val_main_v12 (F := Ideal) (edges m c) := by
  show StableHlo.after hostOps0 (W0 m ρ c) (Proc.devRef .tc main_v12) = _
  after_results
  rfl

/-- The degrees' inverse square roots are the reference's. -/
theorem deg_rsqrt : (W1 m ρ c (Proc.devRef .tc main_v13) : S50000.Idx → EReal)
    = Cert.ReferenceIdeal.ReadP.val_main_v13 (F := Ideal) (edges m c) := by
  show StableHlo.after hostOps0 (W0 m ρ c) (Proc.devRef .tc main_v13) = _
  after_results
  rfl

/-- The zero the scale falls back to is the reference's. -/
theorem zero_word : (W1 m ρ c (Proc.devRef .tc main_cst_2) : S_.Idx → EReal)
    = Cert.ReferenceIdeal.ReadP.val_main_cst_2 (F := Ideal) := by
  show StableHlo.after hostOps0 (W0 m ρ c) (Proc.devRef .tc main_cst_2) = _
  after_results
  rfl

/-- The selection of the scale, over any contents before it. -/
theorem where_term (W : Valuation τ sig (Elt Ideal)) :
    (StableHlo.after hostOps0_1 W (Proc.devRef .tc main_v14) : S50000.Idx → EReal)
      = select (W (Proc.devRef .tc main_v12)) (W (Proc.devRef .tc main_v13))
          (broadcastInDim S50000 ![] bcast_S_S50000 (id (W (Proc.devRef .tc main_cst_2)))) := by
  after_results
  rfl

/-- The nodes' scales are the reference's. -/
theorem scales : (W2 m ρ c (Proc.devRef .tc main_v14) : S50000.Idx → EReal)
    = Cert.ReferenceIdeal.ReadP.val_main_v14 (F := Ideal) (edges m c) := by
  refine (where_term (W1 m ρ c)).trans ?_
  rw [deg_pos, deg_rsqrt, zero_word]
  rfl

/-- The features are as launched. -/
theorem feats : W2 m ρ c (Proc.devRef .tc main_arg0) = m ((c : Thread nD τ).loc main_arg0) := by
  show StableHlo.after hostOps0_1 (W1 m ρ c) (Proc.devRef .tc main_arg0) = _
  after_results

set_option maxHeartbeats 4000000 in
/-- The edge sums of gathered rows, over any contents before the stretch. -/
theorem agg_term (W : Valuation τ sig (Elt Ideal)) :
    (StableHlo.after hostOps0_2 W (Proc.devRef .tc main_v29) : S50000x128.Idx → EReal)
      = Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 (W (Proc.devRef .tc main_v6)))
        (extf .f32 (Host.gather gather_S50000x128_S850000x1_S850000x128_1_0_n_n_0_1_1128
          (truncf .bf16 (mulf (W (Proc.devRef .tc main_arg0))
            (broadcastInDim S50000x128 ![0, 1] bcast_S50000x1_S50000x128_0_1
              (broadcastInDim S50000x1 ![0] bcast_S50000_S50000x1_0 (W (Proc.devRef .tc main_v14))))) bitsLt_bf16_f32)
          (broadcastInDim S850000x1 ![0] bcast_S850000_S850000x1_0
            (select (cmpi .slt (W (Proc.devRef .tc main_v3)) (broadcastInDim S850000 ![] bcast_S_S850000 (constantI S_ 32 0#32)))
              (addi (W (Proc.devRef .tc main_v3)) (broadcastInDim S850000 ![] bcast_S_S850000 (constantI S_ 32 50000#32)))
              (W (Proc.devRef .tc main_v3))))) bitsLt_bf16_f32) := by
  after_results

/-- The gather ids built from the source ids are the reference's. -/
theorem gather_ids :
    (broadcastInDim S850000x1 ![0] bcast_S850000_S850000x1_0
      (select (cmpi .slt (Cert.ReferenceIdeal.ReadP.val_main_v3 (F := Ideal) (edges m c)) (broadcastInDim S850000 ![] bcast_S_S850000 (constantI S_ 32 0#32)))
        (addi (Cert.ReferenceIdeal.ReadP.val_main_v3 (F := Ideal) (edges m c)) (broadcastInDim S850000 ![] bcast_S_S850000 (constantI S_ 32 50000#32)))
        (Cert.ReferenceIdeal.ReadP.val_main_v3 (F := Ideal) (edges m c))) : S850000x1.Idx → BitVec 32)
      = Cert.ReferenceIdeal.ReadP.val_main_v20 (F := Ideal) (edges m c) := rfl

/-- The scatter ids built from the destination ids are the reference's. -/
theorem scatter_ids :
    (broadcastInDim S850000x1 ![0] bcast_S850000_S850000x1_0 (Cert.ReferenceIdeal.ReadP.val_main_v6 (F := Ideal) (edges m c))
        : S850000x1.Idx → BitVec 32)
      = Cert.ReferenceIdeal.ReadP.val_main_v9 (F := Ideal) (edges m c) := rfl

/-! ## Between the regions and after the second: the stretches' terms over any contents before them -/

set_option maxHeartbeats 4000000 in
/-- The first region's result plus the bias. -/
theorem bias1_term (W : Valuation τ sig (Elt Ideal)) :
    (StableHlo.after hostOps1 W (Proc.devRef .tc main_v33) : S50000x256.Idx → EReal)
      = (addf (W (Proc.devRef .tc main_v30))
          (broadcastInDim S50000x256 ![0, 1] bcast_S1x256_S50000x256_0_1
            (broadcastInDim S1x256 ![1] bcast_S256_S1x256_1 (W (Proc.devRef .tc main_arg4)))) : FVec Ideal S50000x256 .f32) := by
  after_results

set_option maxHeartbeats 4000000 in
/-- Clipping at zero. -/
theorem relu1_term (W : Valuation τ sig (Elt Ideal)) :
    (StableHlo.after hostOps1_1 W (Proc.devRef .tc main_v34) : S50000x256.Idx → EReal)
      = (maximumf (W (Proc.devRef .tc main_v33))
          (broadcastInDim S50000x256 ![] bcast_S_S50000x256 (constant (F := Ideal) S_ .f32 0x00000000#32)) : FVec Ideal S50000x256 .f32) := by
  after_results
  rfl

set_option maxHeartbeats 4000000 in
/-- The second region's scale column. -/
theorem col2_term (W : Valuation τ sig (Elt Ideal)) :
    (StableHlo.after hostOps1_2 W (Proc.devRef .tc main_v35) : S50000x1.Idx → EReal)
      = broadcastInDim S50000x1 ![0] bcast_S50000_S50000x1_0 (W (Proc.devRef .tc main_v14)) := by
  after_results

set_option maxHeartbeats 4000000 in
/-- The last clipping at zero. -/
theorem relu2_term (W : Valuation τ sig (Elt Ideal)) :
    (StableHlo.after hostOps2_1 W (Proc.devRef .tc main_v53) : S50000x128.Idx → EReal)
      = (maximumf (W (Proc.devRef .tc main_v52))
          (broadcastInDim S50000x128 ![] bcast_S_S50000x128 (constant (F := Ideal) S_ .f32 0x00000000#32)) : FVec Ideal S50000x128 .f32) := by
  after_results
  rfl

end Cert.KernelValue

end
-- ==== Proof.KernelHostTail.lean ====
/-
  The stretch of host operations after the second region, as one term of the buffer contents before it: the region's
  rows gathered along the edges by the wrapped source ids, summed into the nodes by the destination ids from a zero
  array, scaled by the nodes' scale column, and the second bias added.
-/
import proofs.«136590_j28252294873752_2_alg».proof.Proof.Gen.KernelIdeal.Frame
import proofs.«136590_j28252294873752_2_alg».proof.Proof.RefValue
import Idealize.ShloMosaic.Lib.StableHlo.Run

set_option maxRecDepth 16384

noncomputable section

open scoped BigOperators

namespace Cert.KernelValue

open Cert.KernelIdeal Cert.KernelIdeal.Gen
open Idealize.ShloMosaic Idealize.ShloMosaic.TcCoe Idealize.SL.Sem Idealize.ShloMosaic.StableHlo
open Idealize.ShloMosaic.ValueIdx

set_option maxHeartbeats 8000000 in
/-- The sum of gathered rows, scaled, plus the bias. -/
theorem out_term (W : Valuation τ sig (Elt Ideal)) :
    (StableHlo.after hostOps2 W (Proc.devRef .tc main_v52) : S50000x128.Idx → EReal)
      = addf (mulf
          (Host.scatterAdd scatter_S50000x128_S850000x1_S850000x128_1_0_0_1
            (broadcastInDim S50000x128 ![] bcast_S_S50000x128 (constant (F := Ideal) S_ .f32 0x00000000#32))
            (broadcastInDim S850000x1 ![0] bcast_S850000_S850000x1_0 (W (Proc.devRef .tc main_v6)))
            (extf .f32 (Host.gather gather_S50000x128_S850000x1_S850000x128_1_0_n_n_0_1_1128
              (W (Proc.devRef .tc main_v36))
              (broadcastInDim S850000x1 ![0] bcast_S850000_S850000x1_0
                (select (cmpi .slt (W (Proc.devRef .tc main_v3)) (broadcastInDim S850000 ![] bcast_S_S850000 (constantI S_ 32 0#32)))
                  (addi (W (Proc.devRef .tc main_v3)) (broadcastInDim S850000 ![] bcast_S_S850000 (constantI S_ 32 50000#32)))
                  (W (Proc.devRef .tc main_v3))))) bitsLt_bf16_f32))
          (broadcastInDim S50000x128 ![0, 1] bcast_S50000x1_S50000x128_0_1 (W (Proc.devRef .tc main_v35))))
          (broadcastInDim S50000x128 ![0, 1] bcast_S1x128_S50000x128_0_1
            (broadcastInDim S1x128 ![1] bcast_S128_S1x128_1 (W (Proc.devRef .tc main_arg6)))) := by
  after_results

end Cert.KernelValue

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.RegionValue0.lean ====
/-
  Region 0 (one product with a per-row scale applied before it): the result array after the region as ONE function
  of the region's three input arrays.

  The region's grid has ten points; at point t the body reads rows 5000 t … 5000 t + 4999 of the row array and of the
  scale column, the whole weight, and writes the same rows of the result.  At the extended reals the body's block is,
  at entry (p, q), the sum over the contracted axis k of (row entry (p, k) × scale of row p) × weight entry (k, q):
  the narrowing conversions are the identity there and the accumulator starts at zero.  Since every row of the result
  lies in exactly one block (row r in block r / 5000) the array ends holding that sum at every entry (r, q).
-/
import proofs.«136590_j28252294873752_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«136590_j28252294873752_2_alg».proof.Proof.LibRowOps
import proofs.«136590_j28252294873752_2_alg».proof.Proof.LibKeepdims

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The whole-array function -/

/-- Region 0's result as one function of its three whole input arrays: at `(r, q)` the sum over the contracted
    axis of (row entry × that row's scale) × weight entry. -/
def G0 (a : S50000x128.Idx → EReal) (d : S50000x1.Idx → EReal) (w : S128x256.Idx → EReal) : S50000x256.Idx → EReal :=
  fun i => ∑ k : Fin 128, (a (ix2 ⟨(i 0).val, (i 0).isLt⟩ k) * d (ix2 ⟨(i 0).val, (i 0).isLt⟩ (0 : Fin 1)))
    * w (ix2 k ⟨(i 1).val, (i 1).isLt⟩)

theorem G0_apply (a : S50000x128.Idx → EReal) (d : S50000x1.Idx → EReal) (w : S128x256.Idx → EReal)
    (r : Fin 50000) (q : Fin 256) :
    G0 a d w (ix2 r q) = ∑ k : Fin 128, (a (ix2 r k) * d (ix2 r (0 : Fin 1))) * w (ix2 k q) := rfl

/-! ## The body's product, entry by entry -/

theorem d0_l0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem d0_l1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem d0_r0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem d0_r1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's result at entry `(p, q)` of its block: the sum over the contracted axis of the scaled row entry
    times the weight entry (the narrowing conversions are the identity on the extended reals). -/
theorem pay0_apply (x0 : Vec Ideal S5000x128 .f32) (x2 : Vec Ideal S5000x1 .f32) (x7 : Vec Ideal S128x256 .f32)
    (p : Fin 5000) (q : Fin 256) :
    k0_pay1 x0 x2 x7 (ix2 p q)
      = ∑ k : Fin 128, (x0 (ix2 p k) * x2 (ix2 p (0 : Fin 1))) * x7 (ix2 k q) := by
  unfold k0_pay1
  refine (Cert.RowOps.matmul_zero_entry dot_S5000x128_S128x256_S5000x256_1_0_0_1_n_n rfl rfl d0_l0 d0_l1 d0_r0 d0_r1 none _ _ p q).trans ?_
  refine Finset.sum_congr rfl fun k _ => ?_
  rw [truncf_apply, truncf_apply, mulf_apply, shapeCast_self, shapeCast_self, Cert.Keepdims.broadcastTo_a1_ab_apply]

/-- A block of the result is the matching block of `G0`, when the three input blocks are rows `5000 n …` of the
    row arrays and the whole weight: stated over variables, the coordinates related by hypotheses. -/
theorem blk0_eq (x0 : Vec Ideal S5000x128 .f32) (x1 : Vec Ideal S5000x1 .f32) (x2 : Vec Ideal S128x256 .f32)
    (a : S50000x128.Idx → EReal) (d : S50000x1.Idx → EReal) (w : S128x256.Idx → EReal) (n : ℕ)
    (h0 : ∀ (y : S5000x128.Idx) (i : S50000x128.Idx), (i 0).val = 5000 * n + (y 0).val → (i 1).val = (y 1).val → x0 y = a i)
    (h1 : ∀ (y : S5000x1.Idx) (i : S50000x1.Idx), (i 0).val = 5000 * n + (y 0).val → (i 1).val = (y 1).val → x1 y = d i)
    (h2 : ∀ (y : S128x256.Idx) (i : S128x256.Idx), (i 0).val = (y 0).val → (i 1).val = (y 1).val → x2 y = w i)
    (j : S5000x256.Idx) (i : S50000x256.Idx) (hi0 : (i 0).val = 5000 * n + (j 0).val) (hi1 : (i 1).val = (j 1).val) :
    k0_pay1 x0 x1 x2 j = G0 a d w i := by
  obtain ⟨p, q, rfl⟩ : ∃ (p : Fin 5000) (q : Fin 256), j = ix2 p q := ⟨j 0, j 1, eq_ix2 j⟩
  rw [pay0_apply]
  unfold G0
  refine Finset.sum_congr rfl fun k _ => ?_
  rw [h0 (ix2 p k) (ix2 ⟨(i 0).val, (i 0).isLt⟩ k) hi0 rfl,
    h1 (ix2 p (0 : Fin 1)) (ix2 ⟨(i 0).val, (i 0).isLt⟩ (0 : Fin 1)) hi0 rfl,
    h2 (ix2 k q) (ix2 k ⟨(i 1).val, (i 1).isLt⟩) rfl hi1]

/-! ## The input windows' blocks as rows of their arrays -/

theorem hz0 : (![0, 0] : Fin 2 → Nat) = fun _ => 0 := funext fun a => by fin_cases a <;> rfl

/-- The printed index maps, decided over the grid: the three row windows sit at block row `t`, column block 0;
    the weight window at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Input window 0's block at point `t` is rows `5000 t … 5000 t + 4999` of its array. -/
theorem iblk0_0_apply (c : Dev nD) (t : Fin cfg0.N) (y : S5000x128.Idx) (i : S50000x128.Idx)
    (hi0 : (i 0).val = 5000 * t.val + (y 0).val) (hi1 : (i 1).val = (y 1).val) :
    (iblk0 V c 0 t : Vec Ideal S5000x128 .f32) y = (V c (Pipeline.arrRef spec0 0) : S50000x128.Idx → EReal) i := by
  obtain ⟨e0, e1, -⟩ := idx_facts0 t
  unfold iblk0
  rw [View.read_apply]
  show V c main_v29 _ = V c main_v29 i
  congr 1
  funext a
  apply Fin.ext
  match a with
  | ⟨0, _⟩ => show win0_0.index t (0 : Fin 2) * 5000 + 1 * (y 0).val = (i 0).val; rw [e0, hi0]; omega
  | ⟨1, _⟩ => show win0_0.index t (1 : Fin 2) * 128 + 1 * (y 1).val = (i 1).val; rw [e1, hi1]; omega

/-- Input window 1's block at point `t` is rows `5000 t … 5000 t + 4999` of the scale column. -/
theorem iblk0_1_apply (c : Dev nD) (t : Fin cfg0.N) (y : S5000x1.Idx) (i : S50000x1.Idx)
    (hi0 : (i 0).val = 5000 * t.val + (y 0).val) (hi1 : (i 1).val = (y 1).val) :
    (iblk0 V c 1 t : Vec Ideal S5000x1 .f32) y = (V c (Pipeline.arrRef spec0 1) : S50000x1.Idx → EReal) i := by
  obtain ⟨-, -, e0, e1, -⟩ := idx_facts0 t
  unfold iblk0
  rw [View.read_apply]
  show V c main_v15 _ = V c main_v15 i
  congr 1
  funext a
  apply Fin.ext
  match a with
  | ⟨0, _⟩ => show win0_1.index t (0 : Fin 2) * 5000 + 1 * (y 0).val = (i 0).val; rw [e0, hi0]; omega
  | ⟨1, _⟩ => show win0_1.index t (1 : Fin 2) * 1 + 1 * (y 1).val = (i 1).val; rw [e1, hi1]; omega

/-- Input window 2's block at every point is the whole weight. -/
theorem iblk0_2_apply (c : Dev nD) (t : Fin cfg0.N) (y : S128x256.Idx) (i : S128x256.Idx)
    (hi0 : (i 0).val = (y 0).val) (hi1 : (i 1).val = (y 1).val) :
    (iblk0 V c 2 t : Vec Ideal S128x256 .f32) y = (V c (Pipeline.arrRef spec0 2) : S128x256.Idx → EReal) i := by
  obtain ⟨-, -, -, -, e0, e1, -⟩ := idx_facts0 t
  unfold iblk0
  rw [View.read_apply]
  show V c main_arg3 _ = V c main_arg3 i
  congr 1
  funext a
  apply Fin.ext
  match a with
  | ⟨0, _⟩ => show win0_2.index t (0 : Fin 2) * 128 + 1 * (y 0).val = (i 0).val; rw [e0, hi0]; omega
  | ⟨1, _⟩ => show win0_2.index t (1 : Fin 2) * 256 + 1 * (y 1).val = (i 1).val; rw [e1, hi1]; omega

/-! ## From the blocks to the array -/

/-- What point `t` writes back is block `t` of `G0` of the arrays as the region finds them. -/
theorem flushed0_eq (c : Dev nD) (t : Fin cfg0.N) :
    (dat0 V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S5000x1) hz0, View.ld_unit_zero (S := S128x256) hz0]
  obtain ⟨-, -, -, -, -, -, e0, e1⟩ := idx_facts0 t
  funext j
  rw [View.read_apply]
  refine blk0_eq (iblk0 V c 0 t) (iblk0 V c 1 t) (iblk0 V c 2 t)
    (V c (Pipeline.arrRef spec0 0)) (V c (Pipeline.arrRef spec0 1)) (V c (Pipeline.arrRef spec0 2)) t.val
    (iblk0_0_apply V c t) (iblk0_1_apply V c t) (iblk0_2_apply V c t)
    ((cfg0.win 3).xinj (grid0.coords t) j) (((cfg0.win 3).blk t).view.emb j) ?_ ?_
  · show win0_3.index t (0 : Fin 2) * 5000 + 1 * (j 0).val = 5000 * t.val + (j 0).val
    rw [e0]; omega
  · show win0_3.index t (1 : Fin 2) * 256 + 1 * (j 1).val = (j 1).val
    rw [e1]; omega

/-- An index of the array is in point `t`'s block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v30).slice (win0_3.rect t)).set ↔ _
  rw [View.set_slice_whole, Rect.mem_set_unit]
  exact Iff.rfl

/-- Every index of the result array is in some point's block: row `r` is in block `r / 5000`. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨-, -, -, -, -, -, e0, e1⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 256 ≤ (i 1).val ∧ (i 1).val < win0_3.index t (1 : Fin 2) * 256 + 256; rw [e1]; omega

/-- The result array after region 0 is `G0` of the arrays as the region finds them. -/
theorem final0 (c : Dev nD) :
    (dat0 V c).arrAt 3 cfg0.N
      = G0 (V c (Pipeline.arrRef spec0 0)) (V c (Pipeline.arrRef spec0 1)) (V c (Pipeline.arrRef spec0 2)) :=
  (dat0 V c).arrAt_eq_of_cover 3 _ (fun t _ => flushed0_eq V c t) cover0

/-- The result array after region 0 at entry `(r, q)`. -/
theorem final0_apply (c : Dev nD) (r : Fin 50000) (q : Fin 256) :
    (dat0 V c).arrAt 3 cfg0.N (ix2 r q)
      = G0 (V c (Pipeline.arrRef spec0 0)) (V c (Pipeline.arrRef spec0 1)) (V c (Pipeline.arrRef spec0 2)) (ix2 r q) :=
  congrFun (final0 V c) (ix2 r q)

end Cert.KernelIdeal.RegionValue
end
-- ==== Proof.RegionValue1.lean ====
/-
  Region 1 (one product with a per-row scale applied after it): the result array after the region as ONE function
  of the region's three input arrays.

  The region's grid has ten points; at point t the body reads rows 5000 t … 5000 t + 4999 of the row array and of the
  scale column, the whole weight, and writes the same rows of the result.  At the extended reals the body's block is,
  at entry (p, q), the sum over the contracted axis k of row entry (p, k) × weight entry (k, q), times the scale of
  row p: the narrowing conversions are the identity there and the accumulator starts at zero.  Since every row of the
  result lies in exactly one block (row r in block r / 5000) the array ends holding that value at every entry (r, q).
-/
import proofs.«136590_j28252294873752_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«136590_j28252294873752_2_alg».proof.Proof.LibRowOps
import proofs.«136590_j28252294873752_2_alg».proof.Proof.LibKeepdims

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The whole-array function -/

/-- Region 1's result as one function of its three whole input arrays: at `(r, q)` the sum over the contracted
    axis of row entry × weight entry, times that row's scale. -/
def G1 (x : S50000x256.Idx → EReal) (w : S256x128.Idx → EReal) (d : S50000x1.Idx → EReal) : S50000x128.Idx → EReal :=
  fun i => (∑ k : Fin 256, x (ix2 ⟨(i 0).val, (i 0).isLt⟩ k) * w (ix2 k ⟨(i 1).val, (i 1).isLt⟩))
    * d (ix2 ⟨(i 0).val, (i 0).isLt⟩ (0 : Fin 1))

theorem G1_apply (x : S50000x256.Idx → EReal) (w : S256x128.Idx → EReal) (d : S50000x1.Idx → EReal)
    (r : Fin 50000) (q : Fin 128) :
    G1 x w d (ix2 r q) = (∑ k : Fin 256, x (ix2 r k) * w (ix2 k q)) * d (ix2 r (0 : Fin 1)) := rfl

/-! ## The body's product, entry by entry -/

theorem d1_l0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d1_l1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem d1_r0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem d1_r1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's result at entry `(p, q)` of its block: the sum over the contracted axis of row entry times weight
    entry, times the row's scale (the narrowing conversions are the identity on the extended reals). -/
theorem pay1_apply (x0 : Vec Ideal S5000x256 .f32) (x3 : Vec Ideal S256x128 .f32) (x6 : Vec Ideal S5000x1 .f32)
    (p : Fin 5000) (q : Fin 128) :
    k1_pay1 x0 x3 x6 (ix2 p q)
      = (∑ k : Fin 256, x0 (ix2 p k) * x3 (ix2 k q)) * x6 (ix2 p (0 : Fin 1)) := by
  unfold k1_pay1
  rw [truncf_apply, mulf_apply, Cert.Keepdims.broadcastTo_a1_ab_apply, shapeCast_self, shapeCast_self]
  refine congrArg (· * x6 (ix2 p (0 : Fin 1))) ?_
  refine (Cert.RowOps.matmul_zero_entry dot_S5000x256_S256x128_S5000x128_1_0_0_1_n_n rfl rfl d1_l0 d1_l1 d1_r0 d1_r1 none _ _ p q).trans ?_
  refine Finset.sum_congr rfl fun k _ => ?_
  rw [truncf_apply, truncf_apply]

/-- A block of the result is the matching block of `G1`, when the input blocks are rows `5000 n …` of the row
    arrays and the whole weight: stated over variables, the coordinates related by hypotheses. -/
theorem blk1_eq (x0 : Vec Ideal S5000x256 .f32) (x1 : Vec Ideal S256x128 .f32) (x2 : Vec Ideal S5000x1 .f32)
    (x : S50000x256.Idx → EReal) (w : S256x128.Idx → EReal) (d : S50000x1.Idx → EReal) (n : ℕ)
    (h0 : ∀ (y : S5000x256.Idx) (i : S50000x256.Idx), (i 0).val = 5000 * n + (y 0).val → (i 1).val = (y 1).val → x0 y = x i)
    (h1 : ∀ (y : S256x128.Idx) (i : S256x128.Idx), (i 0).val = (y 0).val → (i 1).val = (y 1).val → x1 y = w i)
    (h2 : ∀ (y : S5000x1.Idx) (i : S50000x1.Idx), (i 0).val = 5000 * n + (y 0).val → (i 1).val = (y 1).val → x2 y = d i)
    (j : S5000x128.Idx) (i : S50000x128.Idx) (hi0 : (i 0).val = 5000 * n + (j 0).val) (hi1 : (i 1).val = (j 1).val) :
    k1_pay1 x0 x1 x2 j = G1 x w d i := by
  obtain ⟨p, q, rfl⟩ : ∃ (p : Fin 5000) (q : Fin 128), j = ix2 p q := ⟨j 0, j 1, eq_ix2 j⟩
  rw [pay1_apply]
  unfold G1
  rw [h2 (ix2 p (0 : Fin 1)) (ix2 ⟨(i 0).val, (i 0).isLt⟩ (0 : Fin 1)) hi0 rfl]
  refine congrArg (· * d (ix2 ⟨(i 0).val, (i 0).isLt⟩ (0 : Fin 1))) ?_
  refine Finset.sum_congr rfl fun k _ => ?_
  rw [h0 (ix2 p k) (ix2 ⟨(i 0).val, (i 0).isLt⟩ k) hi0 rfl,
    h1 (ix2 k q) (ix2 k ⟨(i 1).val, (i 1).isLt⟩) rfl hi1]

/-! ## The input windows' blocks as rows of their arrays -/

theorem hz1 : (![0, 0] : Fin 2 → Nat) = fun _ => 0 := funext fun a => by fin_cases a <;> rfl

/-- The printed index maps, decided over the grid: the three row windows sit at block row `t`, column block 0;
    the weight window at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Input window 0's block at point `t` is rows `5000 t … 5000 t + 4999` of its array. -/
theorem iblk1_0_apply (c : Dev nD) (t : Fin cfg1.N) (y : S5000x256.Idx) (i : S50000x256.Idx)
    (hi0 : (i 0).val = 5000 * t.val + (y 0).val) (hi1 : (i 1).val = (y 1).val) :
    (iblk1 V c 0 t : Vec Ideal S5000x256 .f32) y = (V c (Pipeline.arrRef spec1 0) : S50000x256.Idx → EReal) i := by
  obtain ⟨e0, e1, -⟩ := idx_facts1 t
  unfold iblk1
  rw [View.read_apply]
  show V c main_v34 _ = V c main_v34 i
  congr 1
  funext a
  apply Fin.ext
  match a with
  | ⟨0, _⟩ => show win1_0.index t (0 : Fin 2) * 5000 + 1 * (y 0).val = (i 0).val; rw [e0, hi0]; omega
  | ⟨1, _⟩ => show win1_0.index t (1 : Fin 2) * 256 + 1 * (y 1).val = (i 1).val; rw [e1, hi1]; omega

/-- Input window 1's block at every point is the whole weight. -/
theorem iblk1_1_apply (c : Dev nD) (t : Fin cfg1.N) (y : S256x128.Idx) (i : S256x128.Idx)
    (hi0 : (i 0).val = (y 0).val) (hi1 : (i 1).val = (y 1).val) :
    (iblk1 V c 1 t : Vec Ideal S256x128 .f32) y = (V c (Pipeline.arrRef spec1 1) : S256x128.Idx → EReal) i := by
  obtain ⟨-, -, e0, e1, -⟩ := idx_facts1 t
  unfold iblk1
  rw [View.read_apply]
  show V c main_arg5 _ = V c main_arg5 i
  congr 1
  funext a
  apply Fin.ext
  match a with
  | ⟨0, _⟩ => show win1_1.index t (0 : Fin 2) * 256 + 1 * (y 0).val = (i 0).val; rw [e0, hi0]; omega
  | ⟨1, _⟩ => show win1_1.index t (1 : Fin 2) * 128 + 1 * (y 1).val = (i 1).val; rw [e1, hi1]; omega

/-- Input window 2's block at point `t` is rows `5000 t … 5000 t + 4999` of the scale column. -/
theorem iblk1_2_apply (c : Dev nD) (t : Fin cfg1.N) (y : S5000x1.Idx) (i : S50000x1.Idx)
    (hi0 : (i 0).val = 5000 * t.val + (y 0).val) (hi1 : (i 1).val = (y 1).val) :
    (iblk1 V c 2 t : Vec Ideal S5000x1 .f32) y = (V c (Pipeline.arrRef spec1 2) : S50000x1.Idx → EReal) i := by
  obtain ⟨-, -, -, -, e0, e1, -⟩ := idx_facts1 t
  unfold iblk1
  rw [View.read_apply]
  show V c main_v35 _ = V c main_v35 i
  congr 1
  funext a
  apply Fin.ext
  match a with
  | ⟨0, _⟩ => show win1_2.index t (0 : Fin 2) * 5000 + 1 * (y 0).val = (i 0).val; rw [e0, hi0]; omega
  | ⟨1, _⟩ => show win1_2.index t (1 : Fin 2) * 1 + 1 * (y 1).val = (i 1).val; rw [e1, hi1]; omega

/-! ## From the blocks to the array -/

/-- What point `t` writes back is block `t` of `G1` of the arrays as the region finds them. -/
theorem flushed1_eq (c : Dev nD) (t : Fin cfg1.N) :
    (dat1 V c).flushed 3 t = ((cfg1.win 3).blk t).view.read (Elt Ideal)
      (G1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x256) hz1, View.ld_unit_zero (S := S256x128) hz1, View.ld_unit_zero (S := S5000x1) hz1]
  obtain ⟨-, -, -, -, -, -, e0, e1⟩ := idx_facts1 t
  funext j
  rw [View.read_apply]
  refine blk1_eq (iblk1 V c 0 t) (iblk1 V c 1 t) (iblk1 V c 2 t)
    (V c (Pipeline.arrRef spec1 0)) (V c (Pipeline.arrRef spec1 1)) (V c (Pipeline.arrRef spec1 2)) t.val
    (iblk1_0_apply V c t) (iblk1_1_apply V c t) (iblk1_2_apply V c t)
    ((cfg1.win 3).xinj (grid1.coords t) j) (((cfg1.win 3).blk t).view.emb j) ?_ ?_
  · show win1_3.index t (0 : Fin 2) * 5000 + 1 * (j 0).val = 5000 * t.val + (j 0).val
    rw [e0]; omega
  · show win1_3.index t (1 : Fin 2) * 128 + 1 * (j 1).val = (j 1).val
    rw [e1]; omega

/-- An index of the array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v36).slice (win1_3.rect t)).set ↔ _
  rw [View.set_slice_whole, Rect.mem_set_unit]
  exact Iff.rfl

/-- Every index of the result array is in some point's block: row `r` is in block `r / 5000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e0, e1⟩ := idx_facts1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 128 ≤ (i 1).val ∧ (i 1).val < win1_3.index t (1 : Fin 2) * 128 + 128; rw [e1]; omega

/-- The result array after region 1 is `G1` of the arrays as the region finds them. -/
theorem final1 (c : Dev nD) :
    (dat1 V c).arrAt 3 cfg1.N
      = G1 (V c (Pipeline.arrRef spec1 0)) (V c (Pipeline.arrRef spec1 1)) (V c (Pipeline.arrRef spec1 2)) :=
  (dat1 V c).arrAt_eq_of_cover 3 _ (fun t _ => flushed1_eq V c t) cover1

/-- The result array after region 1 at entry `(r, q)`. -/
theorem final1_apply (c : Dev nD) (r : Fin 50000) (q : Fin 128) :
    (dat1 V c).arrAt 3 cfg1.N (ix2 r q)
      = G1 (V c (Pipeline.arrRef spec1 0)) (V c (Pipeline.arrRef spec1 1)) (V c (Pipeline.arrRef spec1 2)) (ix2 r q) :=
  congrFun (final1 V c) (ix2 r q)

end Cert.KernelIdeal.RegionValue
end
-- ==== Proof.RegionValue.lean ====
/-
  The two kernel regions' result arrays as whole-array functions of the regions' input arrays: region 0 in
  RegionValue0 (`G0`, `final0`), region 1 in RegionValue1 (`G1`, `final1`).
-/
import proofs.«136590_j28252294873752_2_alg».proof.Proof.RegionValue0
import proofs.«136590_j28252294873752_2_alg».proof.Proof.RegionValue1
-- ==== Proof.LibHostOps.lean ====
/-
  Host operations on matrices read at an entry written by coordinates.

  • A vector `[b]` made a one-row matrix and broadcast over `a` rows reads, at `(p, q)`, the vector at `q`.
  • A vector `[a]` made a one-column matrix and broadcast over `b` columns reads, at `(p, c)`, the vector at `p`.
  • A scalar broadcast to any shape reads the scalar everywhere.
  • Two matrices joined along their columns read, left of the seam, the first, and right of it the second.
  • The host's sum over the columns of a matrix, read at row `p`, is the initial value plus the sum of that row.
  • The host's logarithm and exponential read elementwise.
  • A sum over `a + b` indices is the sum over the first `a` plus the sum over the last `b`.
-/
import Idealize.ShloMosaic.Lib.Pipeline.Value
import Idealize.ShloMosaic.Lib.ValueIdx
import Idealize.ShloMosaic.PureOps.Ideal.Laws

namespace Cert.HostOps

open Idealize.ShloMosaic Idealize.ShloMosaic.ValueIdx
open scoped BigOperators

variable {α : Type}

/-- A scalar broadcast to any shape reads the scalar at every index. -/
theorem bcast_scalar {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-row matrix. -/
theorem bcast_vec_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix broadcast over the rows. -/
theorem bcast_row_rows {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A vector as a one-column matrix. -/
theorem bcast_vec_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A one-column matrix broadcast over the columns. -/
theorem bcast_col_cols {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- Left of the seam a column-wise join reads its first piece. -/
theorem concat_cols_left {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin a) (j : Fin c)
    (hj : j.val = k.val) :
    concatenate ⟨2, ![n, c]⟩ 1 [⟨⟨2, ![n, a]⟩, u⟩, ⟨⟨2, ![n, b]⟩, v⟩] h (ix2 p j) = u (ix2 p k) :=
  concatenate_pair_apply_left 1 u v h (ix2 p j) rfl (ix2 p k) (fun ax => by
    match ax with
    | ⟨0, _⟩ => rfl
    | ⟨1, _⟩ => exact hj.symm)

/-- Right of the seam it reads its second piece, the first piece's width taken off the column. -/
theorem concat_cols_right {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin b) (j : Fin c)
    (hj : j.val = a + k.val) :
    concatenate ⟨2, ![n, c]⟩ 1 [⟨⟨2, ![n, a]⟩, u⟩, ⟨⟨2, ![n, b]⟩, v⟩] h (ix2 p j) = v (ix2 p k) :=
  concatenate_pair_apply_right 1 u v h (ix2 p j) rfl rfl (ix2 p k) (fun ax hne => by
    match ax with
    | ⟨0, _⟩ => rfl
    | ⟨1, _⟩ => exact absurd rfl hne) (by
    show k.val + a = j.val
    omega)

/-- The host's sum over the columns, at a row. -/
theorem hostReduceAdd_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun ax => Fin.ext (by match ax with | ⟨0, _⟩ => rfl | ⟨1, _⟩ => rfl))

/-- The host's logarithm and exponential, at an index, are the extended reals'. -/
theorem hostLog_apply {s : Shape} {φ : FTy} (x : FVec Ideal s φ) (i : s.Idx) :
    Host.log (F := Ideal) x i = Ideal.log (x i) := rfl
theorem hostExp_apply {s : Shape} {φ : FTy} (x : FVec Ideal s φ) (i : s.Idx) :
    Host.exp (F := Ideal) x i = Ideal.exp (x i) := rfl

/-- A sum over `a + b` indices splits at `a`. -/
theorem sum_split {M : Type} [AddCommMonoid M] (a b : ℕ) (f : Fin (a + b) → M) :
    ∑ k, f k = ∑ k : Fin a, f (Fin.castAdd b k) + ∑ k : Fin b, f (Fin.natAdd a k) :=
  Fin.sum_univ_add f

end Cert.HostOps
-- ==== Proof.KernelValue.lean ====
/-
  The idealized kernel program's result, entry by entry, in the aggregate-first form of the graph convolution.

  The buffer contents are followed from one boundary of the program to the next.  Before the first region the
  features are scaled by the source node's scale, gathered along the edges and summed into the nodes; the first region
  scales each row of sums by its node's scale and multiplies by the first weights (its result array read at an entry as
  the sum over the contracted coordinate); bias and clipping follow; the second region multiplies by the second weights
  and scales each row by its node's scale; after it the rows are gathered along the edges, summed into the nodes,
  scaled, biased and clipped.  A buffer that a stretch or a region does not write keeps its contents, so the ids, the
  scales and the launched weights and biases are read back to where they were made.
-/
import proofs.«136590_j28252294873752_2_alg».proof.Proof.KernelHost
import proofs.«136590_j28252294873752_2_alg».proof.Proof.KernelHostTail
import proofs.«136590_j28252294873752_2_alg».proof.Proof.RegionValue
import proofs.«136590_j28252294873752_2_alg».proof.Proof.LibHostOps

set_option maxRecDepth 16384

noncomputable section

open scoped BigOperators

namespace Cert.KernelValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- A stretch of host operations leaves a buffer it does not write as it found it. -/
macro "host_keep" : tactic => `(tactic| (
  refine StableHlo.after_of_forall_not_mem _ _ (List.forall_iff_forall_mem.mp ?_)
  simp only [hostOps0, hostOps0_1, hostOps0_2, hostOps1, hostOps1_1, hostOps1_2, hostOps2, hostOps2_1, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The launched arrays by coordinates -/

/-- A node's feature. -/
def featAt (n : Fin 50000) (k : Fin 128) : EReal := (m ((c : Thread nD τ).loc main_arg0) : S50000x128.Idx → EReal) (ix2 n k)
/-- An entry of the first weight matrix. -/
def w1At (k : Fin 128) (j : Fin 256) : EReal := (m ((c : Thread nD τ).loc main_arg3) : S128x256.Idx → EReal) (ix2 k j)
/-- An entry of the first bias. -/
def b1At (j : Fin 256) : EReal := (m ((c : Thread nD τ).loc main_arg4) : S256.Idx → EReal) (ix1 j)
/-- An entry of the second weight matrix. -/
def w2At (j : Fin 256) (f : Fin 128) : EReal := (m ((c : Thread nD τ).loc main_arg5) : S256x128.Idx → EReal) (ix2 j f)
/-- An entry of the second bias. -/
def b2At (f : Fin 128) : EReal := (m ((c : Thread nD τ).loc main_arg6) : S128.Idx → EReal) (ix1 f)

/-! ## What is kept up to the first region -/

theorem w2_arg3 : W2 m ρ c (Proc.devRef .tc main_arg3) = m ((c : Thread nD τ).loc main_arg3) := by
  show StableHlo.after hostOps0_1 (W1 m ρ c) (Proc.devRef .tc main_arg3) = _
  after_results
theorem w2_arg4 : W2 m ρ c (Proc.devRef .tc main_arg4) = m ((c : Thread nD τ).loc main_arg4) := by
  show StableHlo.after hostOps0_1 (W1 m ρ c) (Proc.devRef .tc main_arg4) = _
  after_results
theorem w2_arg5 : W2 m ρ c (Proc.devRef .tc main_arg5) = m ((c : Thread nD τ).loc main_arg5) := by
  show StableHlo.after hostOps0_1 (W1 m ρ c) (Proc.devRef .tc main_arg5) = _
  after_results
theorem w2_arg6 : W2 m ρ c (Proc.devRef .tc main_arg6) = m ((c : Thread nD τ).loc main_arg6) := by
  show StableHlo.after hostOps0_1 (W1 m ρ c) (Proc.devRef .tc main_arg6) = _
  after_results

theorem w3_v3 : (W3 m ρ c (Proc.devRef .tc main_v3) : S850000.Idx → BitVec 32)
    = Cert.ReferenceIdeal.ReadP.val_main_v3 (F := Ideal) (edges m c) :=
  (show StableHlo.after hostOps0_2 (W2 m ρ c) (Proc.devRef .tc main_v3) = W2 m ρ c (Proc.devRef .tc main_v3) by host_keep).trans
    (src_words m ρ c)
theorem w3_v6 : (W3 m ρ c (Proc.devRef .tc main_v6) : S850000.Idx → BitVec 32)
    = Cert.ReferenceIdeal.ReadP.val_main_v6 (F := Ideal) (edges m c) :=
  (show StableHlo.after hostOps0_2 (W2 m ρ c) (Proc.devRef .tc main_v6) = W2 m ρ c (Proc.devRef .tc main_v6) by host_keep).trans
    (dst_words m ρ c)
theorem w3_v14 : (W3 m ρ c (Proc.devRef .tc main_v14) : S50000.Idx → EReal)
    = Cert.ReferenceIdeal.ReadP.val_main_v14 (F := Ideal) (edges m c) :=
  (show StableHlo.after hostOps0_2 (W2 m ρ c) (Proc.devRef .tc main_v14) = W2 m ρ c (Proc.devRef .tc main_v14) by host_keep).trans
    (scales m ρ c)
theorem w3_arg3 : W3 m ρ c (Proc.devRef .tc main_arg3) = m ((c : Thread nD τ).loc main_arg3) :=
  (show StableHlo.after hostOps0_2 (W2 m ρ c) (Proc.devRef .tc main_arg3) = W2 m ρ c (Proc.devRef .tc main_arg3) by host_keep).trans
    (w2_arg3 m ρ c)
theorem w3_arg4 : W3 m ρ c (Proc.devRef .tc main_arg4) = m ((c : Thread nD τ).loc main_arg4) :=
  (show StableHlo.after hostOps0_2 (W2 m ρ c) (Proc.devRef .tc main_arg4) = W2 m ρ c (Proc.devRef .tc main_arg4) by host_keep).trans
    (w2_arg4 m ρ c)
theorem w3_arg5 : W3 m ρ c (Proc.devRef .tc main_arg5) = m ((c : Thread nD τ).loc main_arg5) :=
  (show StableHlo.after hostOps0_2 (W2 m ρ c) (Proc.devRef .tc main_arg5) = W2 m ρ c (Proc.devRef .tc main_arg5) by host_keep).trans
    (w2_arg5 m ρ c)
theorem w3_arg6 : W3 m ρ c (Proc.devRef .tc main_arg6) = m ((c : Thread nD τ).loc main_arg6) :=
  (show StableHlo.after hostOps0_2 (W2 m ρ c) (Proc.devRef .tc main_arg6) = W2 m ρ c (Proc.devRef .tc main_arg6) by host_keep).trans
    (w2_arg6 m ρ c)

/-! ## The first region's inputs -/

/-- The first region's first input, over the reference's id and scale arrays. -/
theorem agg_eq : (W3 m ρ c (Proc.devRef .tc main_v29) : S50000x128.Idx → EReal)
    = Host.scatterAdd scatter_S50000x128_S850000x1_S850000x128_1_0_0_1
        (broadcastInDim S50000x128 ![] bcast_S_S50000x128 (constant (F := Ideal) S_ .f32 0x00000000#32))
        (Cert.ReferenceIdeal.ReadP.val_main_v9 (F := Ideal) (edges m c))
        (extf .f32 (Host.gather gather_S50000x128_S850000x1_S850000x128_1_0_n_n_0_1_1128
          (truncf .bf16 (mulf (m ((c : Thread nD τ).loc main_arg0))
            (broadcastInDim S50000x128 ![0, 1] bcast_S50000x1_S50000x128_0_1
              (broadcastInDim S50000x1 ![0] bcast_S50000_S50000x1_0
                (Cert.ReferenceIdeal.ReadP.val_main_v14 (F := Ideal) (edges m c))))) bitsLt_bf16_f32)
          (Cert.ReferenceIdeal.ReadP.val_main_v20 (F := Ideal) (edges m c))) bitsLt_bf16_f32) := by
  refine (agg_term (W2 m ρ c)).trans ?_
  rw [src_words, dst_words, scales, feats, gather_ids, scatter_ids]

/-- A scale column read at a row is the node's scale. -/
theorem col_of_scales (n : Fin 50000) :
    (broadcastInDim S50000x1 ![0] bcast_S50000_S50000x1_0 (Cert.ReferenceIdeal.ReadP.val_main_v14 (F := Ideal) (edges m c))
      : S50000x1.Idx → EReal) (ix2 n (0 : Fin 1)) = RefValue.disAt (edges m c) n :=
  Cert.HostOps.bcast_vec_col _ bcast_S50000_S50000x1_0 n 0

/-- A row of gathered, scaled features. -/
theorem gathered_apply (e : Fin 850000) (k : Fin 128) :
    (extf .f32 (Host.gather gather_S50000x128_S850000x1_S850000x128_1_0_n_n_0_1_1128
          (truncf .bf16 (mulf (m ((c : Thread nD τ).loc main_arg0))
            (broadcastInDim S50000x128 ![0, 1] bcast_S50000x1_S50000x128_0_1
              (broadcastInDim S50000x1 ![0] bcast_S50000_S50000x1_0
                (Cert.ReferenceIdeal.ReadP.val_main_v14 (F := Ideal) (edges m c))))) bitsLt_bf16_f32)
          (Cert.ReferenceIdeal.ReadP.val_main_v20 (F := Ideal) (edges m c))) bitsLt_bf16_f32
        : FVec Ideal S850000x128 .f32) (ix2 e k)
      = featAt m c (RefValue.srcRow (edges m c) e) k * RefValue.disAt (edges m c) (RefValue.srcRow (edges m c) e) := by
  rw [extf_apply]
  refine (GatherRows.gather_rows_apply (by decide) gather_S50000x128_S850000x1_S850000x128_1_0_n_n_0_1_1128_wf _ _ e k).trans ?_
  rw [truncf_apply, mulf_apply]
  refine congrArg (featAt m c (RefValue.srcRow (edges m c) e) k * ·) ?_
  refine (Cert.HostOps.bcast_col_cols _ bcast_S50000x1_S50000x128_0_1 _ k).trans ?_
  exact col_of_scales m c _

/-- The zero array read anywhere is zero. -/
theorem zeros_apply (n : Fin 50000) (k : Fin 128) :
    (broadcastInDim S50000x128 ![] bcast_S_S50000x128 (constant (F := Ideal) S_ .f32 0x00000000#32)
      : S50000x128.Idx → EReal) (ix2 n k) = 0 := by
  rw [Cert.HostOps.bcast_scalar, constant_apply]
  exact Ideal.ofBits_zero_f32

/-- The first region's first input at an entry: the aggregate-first form's edge sum. -/
theorem agg_apply (n : Fin 50000) (k : Fin 128) :
    Eq (α := EReal) ((W3 m ρ c (Proc.devRef .tc main_v29) : S50000x128.Idx → EReal) (ix2 n k))
      (GcnSpec.aggIn (RefValue.srcRow (edges m c)) (RefValue.inEdges (edges m c)) (RefValue.disAt (edges m c))
          (featAt m c) n k) := by
  rw [agg_eq]
  refine (SegmentSum.scatterAdd_rows_apply scatter_S50000x128_S850000x1_S850000x128_1_0_0_1_wf _ _ _ n k).trans ?_
  unfold GcnSpec.aggIn
  exact congrArg₂ (· + ·) (zeros_apply n k) (Finset.sum_congr rfl fun e _ => gathered_apply m c e k)

set_option maxHeartbeats 4000000 in
/-- The first region's second input: the scales as a column. -/
theorem col_term (W : Valuation τ sig (Elt Ideal)) :
    (StableHlo.after hostOps0_2 W (Proc.devRef .tc main_v15) : S50000x1.Idx → EReal)
      = broadcastInDim S50000x1 ![0] bcast_S50000_S50000x1_0 (W (Proc.devRef .tc main_v14)) := by
  after_results

/-- The scales column read at a row is the node's scale. -/
theorem col_apply (n : Fin 50000) :
    (W3 m ρ c (Proc.devRef .tc main_v15) : S50000x1.Idx → EReal) (ix2 n (0 : Fin 1)) = RefValue.disAt (edges m c) n := by
  have e : (W3 m ρ c (Proc.devRef .tc main_v15) : S50000x1.Idx → EReal)
      = broadcastInDim S50000x1 ![0] bcast_S50000_S50000x1_0 (Cert.ReferenceIdeal.ReadP.val_main_v14 (F := Ideal) (edges m c)) := by
    refine (col_term (W2 m ρ c)).trans ?_
    rw [scales]
  rw [e]
  exact col_of_scales m c n

/-! ## The first region's result, the bias and the clipping -/

/-- The first region's result array at an entry. -/
theorem mm1_apply (n : Fin 50000) (j : Fin 256) :
    Eq (α := EReal) ((W4 m ρ c (Proc.devRef .tc main_v30) : S50000x256.Idx → EReal) (ix2 n j))
      (∑ k : Fin 128, (GcnSpec.aggIn (RefValue.srcRow (edges m c)) (RefValue.inEdges (edges m c)) (RefValue.disAt (edges m c))
          (featAt m c) n k * RefValue.disAt (edges m c) n) * w1At m c k j) := by
  have e : (W4 m ρ c (Proc.devRef .tc main_v30) : S50000x256.Idx → EReal)
      = RegionValue.G0 (W3 m ρ c (Proc.devRef .tc main_v29)) (W3 m ρ c (Proc.devRef .tc main_v15)) (W3 m ρ c (Proc.devRef .tc main_arg3)) :=
    (W4_arr m ρ c 3).trans (RegionValue.final0 (V3 m ρ) c)
  rw [e, RegionValue.G0_apply]
  refine Finset.sum_congr rfl fun k _ => ?_
  rw [agg_apply, col_apply, w3_arg3]
  rfl

/-! ## What is kept across the first region and the stretches after it -/

theorem w4_v3 : (W4 m ρ c (Proc.devRef .tc main_v3) : S850000.Idx → BitVec 32)
    = Cert.ReferenceIdeal.ReadP.val_main_v3 (F := Ideal) (edges m c) :=
  (W4_of_ne m ρ c main_v3 (by decide)).trans (w3_v3 m ρ c)
theorem w4_v6 : (W4 m ρ c (Proc.devRef .tc main_v6) : S850000.Idx → BitVec 32)
    = Cert.ReferenceIdeal.ReadP.val_main_v6 (F := Ideal) (edges m c) :=
  (W4_of_ne m ρ c main_v6 (by decide)).trans (w3_v6 m ρ c)
theorem w4_v14 : (W4 m ρ c (Proc.devRef .tc main_v14) : S50000.Idx → EReal)
    = Cert.ReferenceIdeal.ReadP.val_main_v14 (F := Ideal) (edges m c) :=
  (W4_of_ne m ρ c main_v14 (by decide)).trans (w3_v14 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)

/-- The three stretches between the regions leave a buffer they do not write as the first region left it. -/
theorem w7_of_w4 (b : Ref sig .tc)
    (h1 : StableHlo.after hostOps1 (W4 m ρ c) (Proc.devRef .tc b) = W4 m ρ c (Proc.devRef .tc b))
    (h2 : StableHlo.after hostOps1_1 (W5 m ρ c) (Proc.devRef .tc b) = W5 m ρ c (Proc.devRef .tc b))
    (h3 : StableHlo.after hostOps1_2 (W6 m ρ c) (Proc.devRef .tc b) = W6 m ρ c (Proc.devRef .tc b)) :
    W7 m ρ c (Proc.devRef .tc b) = W4 m ρ c (Proc.devRef .tc b) :=
  h3.trans (h2.trans h1)

theorem w7_v3 : (W7 m ρ c (Proc.devRef .tc main_v3) : S850000.Idx → BitVec 32)
    = Cert.ReferenceIdeal.ReadP.val_main_v3 (F := Ideal) (edges m c) :=
  (w7_of_w4 m ρ c main_v3 (by host_keep) (by host_keep) (by host_keep)).trans (w4_v3 m ρ c)
theorem w7_v6 : (W7 m ρ c (Proc.devRef .tc main_v6) : S850000.Idx → BitVec 32)
    = Cert.ReferenceIdeal.ReadP.val_main_v6 (F := Ideal) (edges m c) :=
  (w7_of_w4 m ρ c main_v6 (by host_keep) (by host_keep) (by host_keep)).trans (w4_v6 m ρ c)
theorem w7_arg5 : W7 m ρ c (Proc.devRef .tc main_arg5) = m ((c : Thread nD τ).loc main_arg5) :=
  (w7_of_w4 m ρ c main_arg5 (by host_keep) (by host_keep) (by host_keep)).trans (w4_arg5 m ρ c)
theorem w7_arg6 : W7 m ρ c (Proc.devRef .tc main_arg6) = m ((c : Thread nD τ).loc main_arg6) :=
  (w7_of_w4 m ρ c main_arg6 (by host_keep) (by host_keep) (by host_keep)).trans (w4_arg6 m ρ c)

/-- Layer one's result at an entry is the aggregate-first form's. -/
theorem hid_apply (n : Fin 50000) (j : Fin 256) :
    Eq (α := EReal) ((W7 m ρ c (Proc.devRef .tc main_v34) : S50000x256.Idx → EReal) (ix2 n j))
      (GcnSpec.hidA (RefValue.srcRow (edges m c)) (RefValue.inEdges (edges m c)) (RefValue.disAt (edges m c))
          (featAt m c) (w1At m c) (b1At m c) n j) := by
  have e : (W7 m ρ c (Proc.devRef .tc main_v34) : S50000x256.Idx → EReal)
      = (maximumf (addf (W4 m ρ c (Proc.devRef .tc main_v30))
          (broadcastInDim S50000x256 ![0, 1] bcast_S1x256_S50000x256_0_1
            (broadcastInDim S1x256 ![1] bcast_S256_S1x256_1 (m ((c : Thread nD τ).loc main_arg4)))))
          (broadcastInDim S50000x256 ![] bcast_S_S50000x256 (constant (F := Ideal) S_ .f32 0x00000000#32))
          : FVec Ideal S50000x256 .f32) := by
    refine (show StableHlo.after hostOps1_2 (W6 m ρ c) (Proc.devRef .tc main_v34) = W6 m ρ c (Proc.devRef .tc main_v34) by host_keep).trans ?_
    refine (relu1_term (W5 m ρ c)).trans ?_
    have e2 : (W5 m ρ c (Proc.devRef .tc main_v33) : S50000x256.Idx → EReal)
        = (addf (W4 m ρ c (Proc.devRef .tc main_v30))
          (broadcastInDim S50000x256 ![0, 1] bcast_S1x256_S50000x256_0_1
            (broadcastInDim S1x256 ![1] bcast_S256_S1x256_1 (W4 m ρ c (Proc.devRef .tc main_arg4))))
          : FVec Ideal S50000x256 .f32) := bias1_term (W4 m ρ c)
    rw [e2, w4_arg4]
  rw [e, maximumf_apply, addf_apply, mm1_apply]
  unfold GcnSpec.hidA
  refine congrArg₂ max (congrArg₂ (· + ·) rfl ?_) ?_
  · refine (Cert.HostOps.bcast_row_rows _ bcast_S1x256_S50000x256_0_1 n j).trans ?_
    exact Cert.HostOps.bcast_vec_row _ bcast_S256_S1x256_1 0 j
  · rw [Cert.HostOps.bcast_scalar, constant_apply]
    exact Ideal.ofBits_zero_f32

/-- The second region's scale column read at a row is the node's scale. -/
theorem col2_apply (n : Fin 50000) :
    (W7 m ρ c (Proc.devRef .tc main_v35) : S50000x1.Idx → EReal) (ix2 n (0 : Fin 1)) = RefValue.disAt (edges m c) n := by
  have e : (W7 m ρ c (Proc.devRef .tc main_v35) : S50000x1.Idx → EReal)
      = broadcastInDim S50000x1 ![0] bcast_S50000_S50000x1_0 (Cert.ReferenceIdeal.ReadP.val_main_v14 (F := Ideal) (edges m c)) := by
    refine (col2_term (W6 m ρ c)).trans ?_
    have h : W6 m ρ c (Proc.devRef .tc main_v14) = W4 m ρ c (Proc.devRef .tc main_v14) :=
      (show StableHlo.after hostOps1_1 (W5 m ρ c) (Proc.devRef .tc main_v14) = W5 m ρ c (Proc.devRef .tc main_v14) by host_keep).trans
        (show StableHlo.after hostOps1 (W4 m ρ c) (Proc.devRef .tc main_v14) = W4 m ρ c (Proc.devRef .tc main_v14) by host_keep)
    rw [h, w4_v14]
  rw [e]
  exact col_of_scales m c n

/-! ## The second region's result and what follows it -/

/-- The second region's result array at an entry. -/
theorem mm2_apply (n : Fin 50000) (f : Fin 128) :
    Eq (α := EReal) ((W8 m ρ c (Proc.devRef .tc main_v36) : S50000x128.Idx → EReal) (ix2 n f))
      (GcnSpec.preA (RefValue.srcRow (edges m c)) (RefValue.inEdges (edges m c)) (RefValue.disAt (edges m c))
          (featAt m c) (w1At m c) (b1At m c) (w2At m c) n f) := by
  have e : (W8 m ρ c (Proc.devRef .tc main_v36) : S50000x128.Idx → EReal)
      = RegionValue.G1 (W7 m ρ c (Proc.devRef .tc main_v34)) (W7 m ρ c (Proc.devRef .tc main_arg5)) (W7 m ρ c (Proc.devRef .tc main_v35)) :=
    (W8_arr m ρ c 3).trans (RegionValue.final1 (V7 m ρ) c)
  rw [e, RegionValue.G1_apply, col2_apply]
  unfold GcnSpec.preA
  refine congrArg (· * RefValue.disAt (edges m c) n) (Finset.sum_congr rfl fun k _ => ?_)
  rw [hid_apply, w7_arg5]
  rfl

theorem w8_v3 : (W8 m ρ c (Proc.devRef .tc main_v3) : S850000.Idx → BitVec 32)
    = Cert.ReferenceIdeal.ReadP.val_main_v3 (F := Ideal) (edges m c) :=
  (W8_of_ne m ρ c main_v3 (by decide)).trans (w7_v3 m ρ c)
theorem w8_v6 : (W8 m ρ c (Proc.devRef .tc main_v6) : S850000.Idx → BitVec 32)
    = Cert.ReferenceIdeal.ReadP.val_main_v6 (F := Ideal) (edges m c) :=
  (W8_of_ne m ρ c main_v6 (by decide)).trans (w7_v6 m ρ c)
theorem w8_arg6 : W8 m ρ c (Proc.devRef .tc main_arg6) = m ((c : Thread nD τ).loc main_arg6) :=
  (W8_of_ne m ρ c main_arg6 (by decide)).trans (w7_arg6 m ρ c)
/-- The scale column is an input of the second region: it leaves it as it found it. -/
theorem w8_v35 : W8 m ρ c (Proc.devRef .tc main_v35) = W7 m ρ c (Proc.devRef .tc main_v35) :=
  (W8_arr m ρ c 2).trans (((dat1 (V7 m ρ) c).arrAt_in 2 rfl _).trans (A_eq1 (V7 m ρ) c 2))

/-- A row of gathered second-region rows. -/
theorem gathered2_apply (e : Fin 850000) (f : Fin 128) :
    (extf .f32 (Host.gather gather_S50000x128_S850000x1_S850000x128_1_0_n_n_0_1_1128
          (W8 m ρ c (Proc.devRef .tc main_v36))
          (Cert.ReferenceIdeal.ReadP.val_main_v20 (F := Ideal) (edges m c))) bitsLt_bf16_f32
        : FVec Ideal S850000x128 .f32) (ix2 e f)
      = GcnSpec.preA (RefValue.srcRow (edges m c)) (RefValue.inEdges (edges m c)) (RefValue.disAt (edges m c))
          (featAt m c) (w1At m c) (b1At m c) (w2At m c) (RefValue.srcRow (edges m c) e) f := by
  rw [extf_apply]
  refine (GatherRows.gather_rows_apply (by decide) gather_S50000x128_S850000x1_S850000x128_1_0_n_n_0_1_1128_wf _ _ e f).trans ?_
  exact mm2_apply m ρ c _ f

/-- THE PROGRAM'S RESULT at an entry is the aggregate-first form. -/
theorem result_apply (n : Fin 50000) (f : Fin 128) :
    Eq (α := EReal) ((W10 m ρ c (Proc.devRef .tc main_v53) : S50000x128.Idx → EReal) (ix2 n f))
      (GcnSpec.outA (RefValue.srcRow (edges m c)) (RefValue.inEdges (edges m c)) (RefValue.disAt (edges m c))
          (featAt m c) (w1At m c) (b1At m c) (w2At m c) (b2At m c) n f) := by
  have e1 := relu2_term (W9 m ρ c)
  have e2 : (W9 m ρ c (Proc.devRef .tc main_v52) : S50000x128.Idx → EReal) = _ := out_term (W8 m ρ c)
  rw [e2, w8_v3, w8_v6, w8_arg6, w8_v35, gather_ids, scatter_ids] at e1
  have e0 : (W10 m ρ c (Proc.devRef .tc main_v53) : S50000x128.Idx → EReal) = _ := e1
  rw [e0, maximumf_apply, addf_apply, mulf_apply]
  unfold GcnSpec.outA
  refine congrArg₂ max (congrArg₂ (· + ·) (congrArg₂ (· * ·) ?_ ?_) ?_) ?_
  · refine (SegmentSum.scatterAdd_rows_apply scatter_S50000x128_S850000x1_S850000x128_1_0_0_1_wf _ _ _ n f).trans ?_
    exact congrArg₂ (· + ·) (zeros_apply n f) (Finset.sum_congr rfl fun e _ => gathered2_apply m ρ c e f)
  · refine (Cert.HostOps.bcast_col_cols _ bcast_S50000x1_S50000x128_0_1 n f).trans ?_
    exact col2_apply m ρ c n
  · refine (Cert.HostOps.bcast_row_rows _ bcast_S1x128_S50000x128_0_1 n f).trans ?_
    exact Cert.HostOps.bcast_vec_row _ bcast_S128_S1x128_1 0 f
  · rw [Cert.HostOps.bcast_scalar, constant_apply]
    exact Ideal.ofBits_zero_f32

end Cert.KernelValue

end
-- ==== Proof.GcnAlgebra.lean ====
/-
  The two ways of writing a two-layer graph convolution agree on finite data.

  All data are real numbers embedded in the extended reals.  On such data every sum, product and maximum in the
  two forms is again the embedding of the corresponding real expression, so both forms are embeddings of real
  formulas, and the real formulas are equal: the sum over edges commutes with the sum over features, a factor
  common to all terms of a sum moves across it, and on the edges gathered into a node the destination is that node.
  The detour through the reals is needed because multiplication does not distribute over addition at the
  infinite points of the extended reals.
-/
import proofs.«136590_j28252294873752_2_alg».proof.Proof.GcnSpec
import Mathlib.Algebra.BigOperators.Group.Finset.Sigma
import Mathlib.Algebra.BigOperators.Ring.Finset
import Mathlib.Tactic.Ring

noncomputable section

open scoped BigOperators

namespace Cert.GcnSpec

/-! ## The embedding of the reals commutes with finite sums and with maxima -/

/-- The embedding of a finite real sum is the sum of the embeddings. -/
@[norm_cast]
theorem coe_sum {κ : Type} (t : Finset κ) (g : κ → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The embedding is monotone, so it commutes with the maximum of two reals. -/
@[norm_cast]
theorem coe_max (a b : ℝ) : ((max a b : ℝ) : EReal) = max (a : EReal) (b : EReal) :=
  EReal.coe_strictMono.monotone.map_max

/-! ## The two forms over the reals -/

section RealForms

variable {ι ε α β γ : Type} [Fintype α] [Fintype β]
variable (s : ε → ι) (dc : ε → ι) (In : ι → Finset ε) (dis : ι → ℝ)
variable (x : ι → α → ℝ) (W1 : α → β → ℝ) (b1 : β → ℝ) (W2 : β → γ → ℝ) (b2 : γ → ℝ)

/-- Layer one, aggregate first, over the reals. -/
def hidAR (n : ι) (j : β) : ℝ :=
  max ((∑ k : α, ((0 + ∑ e ∈ In n, x (s e) k * dis (s e)) * dis n) * W1 k j) + b1 j) 0

/-- Layer one, transform first, over the reals. -/
def hidTR (n : ι) (j : β) : ℝ :=
  max ((0 + ∑ e ∈ In n, (∑ k : α, x (s e) k * W1 k j) * (dis (s e) * dis (dc e))) + b1 j) 0

/-- The aggregate-first result over the reals. -/
def outAR (n : ι) (f : γ) : ℝ :=
  max ((0 + ∑ e ∈ In n, (∑ j : β, hidAR s In dis x W1 b1 (s e) j * W2 j f) * dis (s e)) * dis n + b2 f) 0

/-- The transform-first result over the reals. -/
def outTR (n : ι) (f : γ) : ℝ :=
  max ((0 + ∑ e ∈ In n,
    (∑ j : β, hidTR s dc In dis x W1 b1 (s e) j * W2 j f) * (dis (s e) * dis (dc e))) + b2 f) 0

/-- Layer one agrees over the reals: on the edges into `n` the destination is `n`; then the common factors
`dis n` and `W1 k j` move inside the edge sum, and the edge sum and the feature sum are exchanged. -/
theorem hidAR_eq_hidTR (hdc : ∀ n, ∀ e ∈ In n, dc e = n) (n : ι) (j : β) :
    hidAR s In dis x W1 b1 n j = hidTR s dc In dis x W1 b1 n j := by
  have h : ∀ e ∈ In n, (∑ k : α, x (s e) k * W1 k j) * (dis (s e) * dis (dc e))
      = ∑ k : α, x (s e) k * dis (s e) * dis n * W1 k j := by
    intro e he
    rw [hdc n e he, Finset.sum_mul]
    exact Finset.sum_congr rfl (fun k _ => by ring)
  have h1 : ∑ k : α, ((0 + ∑ e ∈ In n, x (s e) k * dis (s e)) * dis n) * W1 k j
      = 0 + ∑ e ∈ In n, (∑ k : α, x (s e) k * W1 k j) * (dis (s e) * dis (dc e)) := by
    rw [Finset.sum_congr rfl h, Finset.sum_comm]
    simp only [zero_add, Finset.sum_mul]
  unfold hidAR hidTR
  rw [h1]

/-- Layer two agrees over the reals: layer one agrees at every source node, and on the edges into `n` the
factor `dis n` moves inside the edge sum. -/
theorem outAR_eq_outTR (hdc : ∀ n, ∀ e ∈ In n, dc e = n) (n : ι) (f : γ) :
    outAR s In dis x W1 b1 W2 b2 n f = outTR s dc In dis x W1 b1 W2 b2 n f := by
  have h2 : (0 + ∑ e ∈ In n, (∑ j : β, hidAR s In dis x W1 b1 (s e) j * W2 j f) * dis (s e)) * dis n
      = 0 + ∑ e ∈ In n,
          (∑ j : β, hidTR s dc In dis x W1 b1 (s e) j * W2 j f) * (dis (s e) * dis (dc e)) := by
    rw [zero_add, zero_add, Finset.sum_mul]
    refine Finset.sum_congr rfl (fun e he => ?_)
    rw [hdc n e he]
    simp only [hidAR_eq_hidTR s dc In dis x W1 b1 hdc]
    ring
  unfold outAR outTR
  rw [h2]

/-! ## Both forms on embedded real data are embeddings of the real forms -/

theorem hidA_coe (n : ι) (j : β) :
    hidA s In (fun n => (dis n : EReal)) (fun n k => (x n k : EReal)) (fun k j => (W1 k j : EReal))
      (fun j => (b1 j : EReal)) n j = (hidAR s In dis x W1 b1 n j : EReal) := by
  simp only [hidA, aggIn, hidAR]
  norm_cast

theorem hidT_coe (n : ι) (j : β) :
    hidT s dc In (fun n => (dis n : EReal)) (fun n k => (x n k : EReal)) (fun k j => (W1 k j : EReal))
      (fun j => (b1 j : EReal)) n j = (hidTR s dc In dis x W1 b1 n j : EReal) := by
  simp only [hidT, xw, hidTR]
  norm_cast

theorem outA_coe (n : ι) (f : γ) :
    outA s In (fun n => (dis n : EReal)) (fun n k => (x n k : EReal)) (fun k j => (W1 k j : EReal))
      (fun j => (b1 j : EReal)) (fun j f => (W2 j f : EReal)) (fun f => (b2 f : EReal)) n f
      = (outAR s In dis x W1 b1 W2 b2 n f : EReal) := by
  simp only [outA, preA, hidA_coe, outAR]
  norm_cast

theorem outT_coe (n : ι) (f : γ) :
    outT s dc In (fun n => (dis n : EReal)) (fun n k => (x n k : EReal)) (fun k j => (W1 k j : EReal))
      (fun j => (b1 j : EReal)) (fun j f => (W2 j f : EReal)) (fun f => (b2 f : EReal)) n f
      = (outTR s dc In dis x W1 b1 W2 b2 n f : EReal) := by
  simp only [outT, hw, hidT_coe, outTR]
  norm_cast

end RealForms

/-! ## The statement on extended-real data that happen to be real -/

variable {ι ε α β γ : Type} [Fintype α] [Fintype β]
variable (s : ε → ι) (dc : ε → ι) (In : ι → Finset ε) (dis : ι → EReal)
variable (x : ι → α → EReal) (W1 : α → β → EReal) (b1 : β → EReal) (W2 : β → γ → EReal) (b2 : γ → EReal)

/-- On real-valued data, with every edge gathered into a node ending at that node, the aggregate-first and the
transform-first forms of the two-layer graph convolution give the same result. -/
theorem outA_eq_outT
    (hx : ∀ n k, ∃ r : ℝ, x n k = (r : EReal)) (hW1 : ∀ k j, ∃ r : ℝ, W1 k j = (r : EReal))
    (hb1 : ∀ j, ∃ r : ℝ, b1 j = (r : EReal)) (hW2 : ∀ j f, ∃ r : ℝ, W2 j f = (r : EReal))
    (hb2 : ∀ f, ∃ r : ℝ, b2 f = (r : EReal)) (hdis : ∀ n, ∃ r : ℝ, dis n = (r : EReal))
    (hdc : ∀ n, ∀ e ∈ In n, dc e = n) (n : ι) (f : γ) :
    outA s In dis x W1 b1 W2 b2 n f = outT s dc In dis x W1 b1 W2 b2 n f := by
  choose x' hx' using hx
  choose W1' hW1' using hW1
  choose b1' hb1' using hb1
  choose W2' hW2' using hW2
  choose b2' hb2' using hb2
  choose dis' hdis' using hdis
  obtain rfl : x = fun n k => (x' n k : EReal) := funext fun n => funext fun k => hx' n k
  obtain rfl : W1 = fun k j => (W1' k j : EReal) := funext fun k => funext fun j => hW1' k j
  obtain rfl : b1 = fun j => (b1' j : EReal) := funext hb1'
  obtain rfl : W2 = fun j f => (W2' j f : EReal) := funext fun j => funext fun f => hW2' j f
  obtain rfl : b2 = fun f => (b2' f : EReal) := funext hb2'
  obtain rfl : dis = fun n => (dis' n : EReal) := funext hdis'
  rw [outA_coe, outT_coe, outAR_eq_outTR s dc In dis' x' W1' b1' W2' b2' hdc]

end Cert.GcnSpec

end
-- ==== Proof.RefFacts.lean ====
/-
  Two facts about the reference's edge rows and scales.

  * Every node's scale is a real number: the degree is zero plus a sum of ones, one for every edge into the node, hence
    a nonnegative real; where it is positive the scale is the reciprocal of its square root, and elsewhere it is zero.
  * An edge that is summed into node n has destination row n: its destination id, read signed, is n, which is not
    negative, so the id is not wrapped, and n lies in the node range, so it is not clamped.
-/
import proofs.«136590_j28252294873752_2_alg».proof.Proof.RefValue
import proofs.«136590_j28252294873752_2_alg».proof.Proof.GcnAlgebra
import Idealize.ShloMosaic.Lib.IdealHost

set_option maxRecDepth 16384

noncomputable section

open scoped BigOperators

namespace Cert.RefValue

open Cert.ReferenceIdeal Cert.ReferenceIdeal.Gen Cert.ReferenceIdeal.ReadP
open Idealize.ShloMosaic Idealize.ShloMosaic.ValueIdx

variable (a1 : (⟨S2x800000, .i32⟩ : BufTy).Contents (Elt Ideal))

/-- A node's degree is a real number. -/
theorem deg_real (n : Fin 50000) : ∃ r : ℝ, val_main_v10 (F := Ideal) a1 (ix1 n) = (r : EReal) := by
  have h : val_main_v10 (F := Ideal) a1 (ix1 n)
      = val_main_v8 (F := Ideal) (ix1 n) + ∑ e ∈ Finset.univ.filter
          (fun e : Fin 850000 => (val_main_v9 (F := Ideal) a1 (ix2 e (0 : Fin 1))).toInt = (n.val : Int)),
          val_main_v7 (F := Ideal) (ix1 e) := by
    unfold val_main_v10
    exact SegmentSum.scatterAdd_flat_apply scatter_S50000_S850000x1_S850000_n_0_0_1_wf
      (val_main_v8 (F := Ideal)) (val_main_v9 (F := Ideal) a1) (val_main_v7 (F := Ideal)) n
  have h8 : val_main_v8 (F := Ideal) (ix1 n) = ((0 : ℝ) : EReal) := by
    rw [val_main_v8_apply, val_main_cst_0_apply, zero_f32]; rfl
  have h7 : ∀ e : Fin 850000, val_main_v7 (F := Ideal) (ix1 e) = ((1 : ℝ) : EReal) := fun e => by
    rw [val_main_v7_apply, val_main_cst_apply]
    exact Ideal.ofBits_one_f32
  rw [h, h8]
  simp only [h7]
  exact ⟨_, by rw [← Cert.GcnSpec.coe_sum, ← EReal.coe_add]⟩

/-- Every node's scale is a real number. -/
theorem disAt_real (n : Fin 50000) : ∃ r : ℝ, disAt a1 n = (r : EReal) := by
  obtain ⟨d, hd⟩ := deg_real a1 n
  unfold disAt
  rw [val_main_v14_apply, val_main_v12_apply, val_main_v13_apply, val_main_call0_v1_apply, val_main_call0_v0_apply,
    val_main_cst_2_apply, val_main_v11_apply, val_main_cst_1_apply, hd, zero_f32]
  show ∃ r : ℝ, Scalar.select (Ideal.cmp .ogt (d : EReal) 0) (Ideal.rsqrt (d : EReal)) 0 = (r : EReal)
  by_cases h : (0 : EReal) < (d : EReal)
  · have hc : Ideal.cmp .ogt (d : EReal) 0 = 1#1 := by simp [Ideal.cmp, h]
    rw [hc, select_one]
    have hd0 : 0 < d := by exact_mod_cast h
    refine ⟨(Real.sqrt d)⁻¹, ?_⟩
    rw [Ideal.rsqrt_coe, if_neg (not_lt.mpr hd0.le), if_neg hd0.ne']
  · have hc : Ideal.cmp .ogt (d : EReal) 0 = 0#1 := by simp [Ideal.cmp, h]
    rw [hc, select_zero]
    exact ⟨0, rfl⟩

/-- An edge summed into a node has that node as its destination row. -/
theorem dstRow_of_mem (n : Fin 50000) (e : Fin 850000) (he : e ∈ inEdges a1 n) : dstRow a1 e = n := by
  unfold inEdges at he
  rw [Finset.mem_filter] at he
  have hw := he.2
  rw [val_main_v9_apply] at hw
  unfold dstRow
  rw [val_main_v27_apply, val_main_v26_apply, val_main_v23_apply, val_main_v22_apply, val_main_c_4_apply]
  have hi : idx_main_v27 (ix2 e (0 : Fin 1)) = idx_main_v9 (ix2 e (0 : Fin 1)) := rfl
  rw [hi]
  generalize val_main_v6 (F := Ideal) a1 (idx_main_v9 (ix2 e (0 : Fin 1))) = w at hw ⊢
  have hns : IntOp.cmpi .slt w 0#32 = 0#1 := by
    have : ¬ (w.slt 0#32 = true) := by
      rw [BitVec.slt_iff_toInt_lt]
      have : (0#32 : BitVec 32).toInt = 0 := by decide
      omega
    simp [IntOp.cmpi, this]
  rw [hns, select_zero]
  unfold clampRow
  apply Fin.ext
  show min w.toInt.toNat (50000 - 1) = n.val
  have := n.isLt
  omega

end Cert.RefValue

end
-- ==== Proof.FiniteInputs.lean ====
/-
  From the precondition to real inputs. The precondition computes, for each of the five float arguments,
  the bit "every entry x has |x| < +∞" (a reduction by `and` of the elementwise comparison of |x| against
  the f32 pattern of +∞), and the conjunction of the five bits; the claim's hypothesis says the result is 1.
  At the extended reals an entry with |x| < ⊤ is neither ⊥ nor ⊤, hence the coercion of a real number.
-/
import proofs.«136590_j28252294873752_2_alg».proof.Proof.Gen.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx Cert.Pre_finite_inputs

/-- The rank-zero shape has one index. -/
instance subsingleton_scalarIdx : Subsingleton S_.Idx := ⟨fun a b => funext fun d => d.elim0⟩

/-- The f32 pattern `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max x (-x)` is below `⊤` is a real number: `⊤` has
    `max ⊤ ⊥ = ⊤` and `⊥` has `max ⊥ ⊤ = ⊤`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One `jnp.all(|x| < +∞)` bit that is 1 makes every entry of `x` a real number, at any shape. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have h1 := Host.reduce_andi_all _ _ hr hu ix0 e i
  -- the comparison at `i`: |x i| against the broadcast scalar, which reads the constant's value everywhere
  have h2 : Ideal.cmp .olt (max (x i) (-(x i))) (Ideal.ofBits .f32 0x7F800000#32) = 1#1 := h1
  rw [ofBits_posInf] at h2
  refine real_of_abs_lt_top (x i) ?_
  by_contra hn
  simp [Ideal.cmp, hn] at h2

/-- The precondition holds only when every entry of the five float arguments is a real number. -/
theorem real_of_pre (x0 : FVec Ideal S50000x128 .f32) (x1 : IVec S2x800000 32) (x2 : IVec S50000 32)
    (x3 : FVec Ideal S128x256 .f32) (x4 : FVec Ideal S256 .f32) (x5 : FVec Ideal S256x128 .f32) (x6 : FVec Ideal S128 .f32)
    (h : Cert.Pre_finite_inputs.fn (F := Ideal) x0 x1 x2 x3 x4 x5 x6 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) := by
  -- the result at its one index: the conjunction of the five bits
  have h0 := congrFun h ix0
  dsimp only [fn, fn_part1] at h0
  obtain ⟨h0123, b6⟩ := IntOp.andi_eq_one.1 h0
  obtain ⟨h012, b5⟩ := IntOp.andi_eq_one.1 h0123
  obtain ⟨h01, b4⟩ := IntOp.andi_eq_one.1 h012
  obtain ⟨b0, b3⟩ := IntOp.andi_eq_one.1 h01
  exact ⟨all_real x0 _ _ _ b0, all_real x3 _ _ _ b3, all_real x4 _ _ _ b4, all_real x5 _ _ _ b5, all_real x6 _ _ _ b6⟩

end Cert.FiniteInputs

end
-- ==== Proof.lean ====
/-
  A two-layer graph convolution: the kernel program against its reference, on the extended reals.

  Both programs build, from the edge list, the source and destination id of every edge (a self-loop appended for
  every node), the degree of every node as a segment sum of ones over the destination ids, and the scale of every
  node: the inverse square root of a positive degree, zero otherwise.  A layer multiplies node features by a weight
  matrix, sends along every edge the source's row scaled by the two end nodes' scales, sums what arrives at each node,
  adds a bias and clips at zero.

  The reference scales each edge's message by the product of the two scales and applies the weights before the edge
  sum.  The kernel program scales by the source's scale before the edge sum and by the receiving node's scale after it
  (inside its two pipelined matrix-product regions), and in the first layer sums the raw features over the edges
  before applying the weights.  The two agree because every input entry is a real number (the precondition), every
  scale is a real number, and on real data the edge sum commutes with the feature sum and a common factor moves
  across a sum; the receiving node's scale read at an edge's destination is the node's own because an edge summed
  into node n has destination id n, in range and not negative.

  The modules: the kernel program's run with its result named (KernelRun); its host stretches as terms
  (KernelHost, KernelHostTail), its two regions' result arrays (RegionValue) and its result entry by entry in the
  aggregate-first form (KernelValue); the reference's result entry by entry in the transform-first form (RefValue) and
  the two facts about its scales and destination rows (RefFacts); the two forms and their agreement (GcnSpec,
  GcnAlgebra); real inputs from the precondition (FiniteInputs).
-/
import proofs.«136590_j28252294873752_2_alg».proof.Defs
import proofs.«136590_j28252294873752_2_alg».proof.Proof.Gen.Kernel
import proofs.«136590_j28252294873752_2_alg».proof.Proof.Gen.Kernel.Frame
import proofs.«136590_j28252294873752_2_alg».proof.Proof.Gen.KernelIdeal
import proofs.«136590_j28252294873752_2_alg».proof.Proof.Gen.KernelIdeal.Frame
import proofs.«136590_j28252294873752_2_alg».proof.Proof.Gen.ReferenceIdeal
import proofs.«136590_j28252294873752_2_alg».proof.Proof.Gen.Pre_finite_inputs
import proofs.«136590_j28252294873752_2_alg».proof.Proof.KernelRun
import proofs.«136590_j28252294873752_2_alg».proof.Proof.KernelValue
import proofs.«136590_j28252294873752_2_alg».proof.Proof.RefValue
import proofs.«136590_j28252294873752_2_alg».proof.Proof.RefFacts
import proofs.«136590_j28252294873752_2_alg».proof.Proof.GcnAlgebra
import proofs.«136590_j28252294873752_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- On finite inputs the two programs' results agree entry by entry. -/
theorem results_agree (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.ReadP.val_main_v65 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Gen.W10 m ρ c (Proc.devRef .tc Cert.KernelIdeal.main_v53) := by
  obtain ⟨h0, h3, h4, h5, h6⟩ := Cert.FiniteInputs.real_of_pre _ _ _ _ _ _ _ (hpre c)
  funext i
  obtain ⟨n, f, rfl⟩ : ∃ (n : Fin 50000) (f : Fin 128), i = ix2 n f := ⟨i 0, i 1, eq_ix2 i⟩
  refine (Cert.RefValue.result_apply _ _ _ _ _ _ n f).trans ?_
  refine Eq.trans ?_ (Cert.KernelValue.result_apply m ρ c n f).symm
  exact (Cert.GcnSpec.outA_eq_outT _ _ _ _ _ _ _ _ _
    (fun n k => h0 (ix2 n k)) (fun k j => h3 (ix2 k j)) (fun j => h4 (ix1 j)) (fun j f => h5 (ix2 j f))
    (fun f => h6 (ix1 f)) (fun n => Cert.RefValue.disAt_real _ n) (fun n e he => Cert.RefValue.dstRow_of_mem _ n e he) n f).symm

/-- At the ideal instance both programs run from memories agreeing on the arguments and end with equal results. -/
theorem algebraic : Cert.algebraic_KernelIdeal_ReferenceIdeal := by
  intro m ρ m' ρ' hpre hagree
  refine ⟨fun c => Cert.KernelIdeal.Gen.W10 m ρ c (Proc.devRef .tc Cert.KernelIdeal.main_v53),
    Cert.KernelIdeal.Named.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2.2.1, (hagree c).2.2.2.2.1,
    (hagree c).2.2.2.2.2.1, (hagree c).2.2.2.2.2.2]
  exact results_agree m ρ hpre c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
